-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x1 .f32) (main_arg11 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x256 .f32) (main_arg7 : FVec F S256 .f32) (main_arg8 : FVec F S256x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S1000000x64 .f32) (main_arg1 : IVec S1000000 32) (main_arg2 : FVec F S64x128 .f32) (main_arg3 : FVec F S128 .f32) (main_arg4 : FVec F S128x128 .f32) (main_arg5 : FVec F S128 .f32) (main_arg6 : FVec F S128x256 .f32) (main_arg7 : FVec F S256 .f32) (main_arg8 : FVec F S256x128 .f32) (main_arg9 : FVec F S128 .f32) (main_arg10 : FVec F S128x1 .f32) (main_arg11 : FVec F S1 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S1000000x64 : Shape := ⟨2, ![1000000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1000000x128 : Shape := ⟨2, ![1000000, 128]⟩
abbrev S10000x64 : Shape := ⟨2, ![10000, 64]⟩
abbrev S10000x128 : Shape := ⟨2, ![10000, 128]⟩
abbrev S1x128 : Shape := ⟨2, ![1, 128]⟩
abbrev S999999 : Shape := ⟨1, ![999999]⟩
abbrev S_ : Shape := ⟨0, ![]⟩
abbrev S1000000x1 : Shape := ⟨2, ![1000000, 1]⟩
abbrev S10000x1 : Shape := ⟨2, ![10000, 1]⟩
abbrev S10000x256 : Shape := ⟨2, ![10000, 256]⟩
abbrev S1x256 : Shape := ⟨2, ![1, 256]⟩
abbrev S1x1 : Shape := ⟨2, ![1, 1]⟩

abbrev nBuf : Space → Nat
  | .hbm => 30
  | .vmem => 16
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S64x128, .bf16⟩
  | .hbm, ⟨13, _⟩ => ⟨S128x128, .bf16⟩
  | .hbm, ⟨14, _⟩ => ⟨S1000000x128, .f32⟩
  | .hbm, ⟨15, _⟩ => ⟨S999999, .i32⟩
  | .hbm, ⟨16, _⟩ => ⟨S999999, .i32⟩
  | .hbm, ⟨17, _⟩ => ⟨S999999, .i1⟩
  | .hbm, ⟨18, _⟩ => ⟨S999999, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S999999, .i32⟩
  | .hbm, ⟨24, _⟩ => ⟨S1000000, .i32⟩
  | .hbm, ⟨25, _⟩ => ⟨S_, .f32⟩
  | .hbm, ⟨26, _⟩ => ⟨S10000x128, .f32⟩
  | .hbm, ⟨27, _⟩ => ⟨S1000000x1, .i32⟩
  | .hbm, ⟨28, _⟩ => ⟨S10000x128, .f32⟩
  | .hbm, ⟨29, _⟩ => ⟨S10000x1, .f32⟩
  | .local _ .vmem, ⟨0, _⟩ => ⟨S10000x64, .f32⟩
  | .local _ .vmem, ⟨1, _⟩ => ⟨S10000x64, .f32⟩
  | .local _ .vmem, ⟨2, _⟩ => ⟨S64x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S128x256, .f32⟩
  | .local _ .vmem, ⟨10, _⟩ => ⟨S256, .f32⟩
  | .local _ .vmem, ⟨11, _⟩ => ⟨S256x128, .f32⟩
  | .local _ .vmem, ⟨12, _⟩ => ⟨S128, .f32⟩
  | .local _ .vmem, ⟨13, _⟩ => ⟨S128x1, .f32⟩
  | .local _ .vmem, ⟨14, _⟩ => ⟨S1, .f32⟩
  | .local _ .vmem, ⟨15, _⟩ => ⟨S10000x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_call0_call0_c : Ref sig .tc := ⟨.hbm, 21, rfl⟩
abbrev main_call0_call0_v0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10000x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  slices_S1000000_S999999_1 : S1000000.Slices ![1] S999999
  slices_S1000000_S999999_0 : S1000000.Slices ![0] S999999
  natLt_1_32 : 1 < 32
  bcast_S_S1 : S_.BroadcastsInDim S1 (![] : Fin 0 → Fin S1.rank)
  bcast_S_S_ : S_.BroadcastsInDim S_ (![] : Fin 0 → Fin S_.rank)
  reduceWindows_S999999_S999999_w999999s1p999998_0 : S999999.ReduceWindows (![999999] : Fin 1 → Nat) ![1] ![999998] ![0] S999999
  h_S_ : 0 < S_.numel
  concatenates_S1_S999999_S1000000_d0 : Shape.Concatenates [S1, S999999] S1000000 0
  bcast_S_S10000x128 : S_.BroadcastsInDim S10000x128 (![] : Fin 0 → Fin S10000x128.rank)
  bcast_S1000000_S1000000x1_0 : S1000000.BroadcastsInDim S1000000x1 (![0] : Fin 1 → Fin S1000000x1.rank)
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S10000x256 : S1x256.Broadcasts S10000x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  scatter_S10000x128_S1000000x1_S1000000x128_1_0_0_1_wf : ScatterDims.WF S10000x128 S1000000x1 S1000000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S1000000x128.size a
  hwx0_5 : ∀ i : grid0.Coords, EltTy.bits .f32 = 32 ∨ (Rect.block (s := S1000000x128) S10000x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S10000x1.size a
  hwx1_7 : ∀ i : grid1.Coords, EltTy.bits .f32 = 32 ∨ (Rect.block (s := S10000x1) S10000x1.size (cc1_transform_7 i) (hinb1_7 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000x128_S1000000x1_S1000000x128_1_0_0_1 : ScatterDims S10000x128 S1000000x1 S1000000x128 where
  updateWindowDims := [1]
  insertedWindowDims := [0]
  scatterDimsToOperandDims := [0]
  indexVectorDim := 1
  wf := scatter_S10000x128_S1000000x1_S1000000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S10000x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1000000x128 : Shape := ⟨2, ![1000000, 128]⟩
abbrev S1x128 : Shape := ⟨2, ![1, 128]⟩
abbrev S_ : Shape := ⟨0, ![]⟩
abbrev S999999 : Shape := ⟨1, ![999999]⟩
abbrev S10000x128 : Shape := ⟨2, ![10000, 128]⟩
abbrev S1000000x1 : Shape := ⟨2, ![1000000, 1]⟩
abbrev S10000x256 : Shape := ⟨2, ![10000, 256]⟩
abbrev S1x256 : Shape := ⟨2, ![1, 256]⟩
abbrev S10000x1 : Shape := ⟨2, ![10000, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1000000x128, .f32⟩
  | .hbm, ⟨13, _⟩ => ⟨S1x128, .f32⟩
  | .hbm, ⟨14, _⟩ => ⟨S1000000x128, .f32⟩
  | .hbm, ⟨15, _⟩ => ⟨S1000000x128, .f32⟩
  | .hbm, ⟨16, _⟩ => ⟨S_, .f32⟩
  | .hbm, ⟨17, _⟩ => ⟨S1000000x128, .f32⟩
  | .hbm, ⟨18, _⟩ => ⟨S1000000x128, .f32⟩
  | .hbm, ⟨19, _⟩ => ⟨S1000000x128, .f32⟩
  | .hbm, ⟨20, _⟩ => ⟨S1x128, .f32⟩
  | .hbm, ⟨21, _⟩ => ⟨S1000000x128, .f32⟩
  | .hbm, ⟨22, _⟩ => ⟨S1000000x128, .f32⟩
  | .hbm, ⟨23, _⟩ => ⟨S_, .f32⟩
  | .hbm, ⟨24, _⟩ => ⟨S1000000x128, .f32⟩
  | .hbm, ⟨25, _⟩ => ⟨S1000000x128, .f32⟩
  | .hbm, ⟨26, _⟩ => ⟨S999999, .i32⟩
  | .hbm, ⟨27, _⟩ => ⟨S999999, .i32⟩
  | .hbm, ⟨28, _⟩ => ⟨S999999, .i1⟩
  | .hbm, ⟨29, _⟩ => ⟨S999999, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S_, .i32⟩
  | .hbm, ⟨34, _⟩ => ⟨S999999, .i32⟩
  | .hbm, ⟨35, _⟩ => ⟨S1000000, .i32⟩
  | .hbm, ⟨36, _⟩ => ⟨S_, .f32⟩
  | .hbm, ⟨37, _⟩ => ⟨S10000x128, .f32⟩
  | .hbm, ⟨38, _⟩ => ⟨S1000000x1, .i32⟩
  | .hbm, ⟨39, _⟩ => ⟨S10000x128, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | .hbm, ⟨44, _⟩ => ⟨S_, .f32⟩
  | .hbm, ⟨45, _⟩ => ⟨S10000x256, .f32⟩
  | .hbm, ⟨46, _⟩ => ⟨S10000x256, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x1, .f32⟩
  | .hbm, ⟨55, _⟩ => ⟨S1x1, .f32⟩
  | .hbm, ⟨56, _⟩ => ⟨S10000x1, .f32⟩
  | .hbm, ⟨57, _⟩ => ⟨S10000x1, .f32⟩
  | .hbm, ⟨58, _⟩ => ⟨S10000x1, .f32⟩
  | .hbm, ⟨59, _⟩ => ⟨S10000x1, .f32⟩
  | .hbm, ⟨60, _⟩ => ⟨S_, .f32⟩
  | .hbm, ⟨61, _⟩ => ⟨S10000x1, .f32⟩
  | .hbm, ⟨62, _⟩ => ⟨S10000x1, .f32⟩
  | .hbm, ⟨63, _⟩ => ⟨S_, .f32⟩
  | .hbm, ⟨64, _⟩ => ⟨S10000x1, .f32⟩
  | .hbm, ⟨65, _⟩ => ⟨S10000x1, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_call2_call0_c : Ref sig .tc := ⟨.hbm, 32, rfl⟩
abbrev main_call2_call0_v0 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call3_cst : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_0 : Ref sig .tc := ⟨.hbm, 60, rfl⟩
abbrev main_v36 : Ref sig .tc := ⟨.hbm, 61, rfl⟩
abbrev main_v37 : Ref sig .tc := ⟨.hbm, 62, rfl⟩
abbrev main_cst_1 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  slices_S1000000_S999999_1 : S1000000.Slices ![1] S999999
  slices_S1000000_S999999_0 : S1000000.Slices ![0] S999999
  natLt_1_32 : 1 < 32
  bcast_S_S1 : S_.BroadcastsInDim S1 (![] : Fin 0 → Fin S1.rank)
  bcast_S_S_ : S_.BroadcastsInDim S_ (![] : Fin 0 → Fin S_.rank)
  reduceWindows_S999999_S999999_w999999s1p999998_0 : S999999.ReduceWindows (![999999] : Fin 1 → Nat) ![1] ![999998] ![0] S999999
  h_S_ : 0 < S_.numel
  concatenates_S1_S999999_S1000000_d0 : Shape.Concatenates [S1, S999999] S1000000 0
  bcast_S_S10000x128 : S_.BroadcastsInDim S10000x128 (![] : Fin 0 → Fin S10000x128.rank)
  bcast_S1000000_S1000000x1_0 : S1000000.BroadcastsInDim S1000000x1 (![0] : Fin 1 → Fin S1000000x1.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1x128_S10000x128_0_1 : S1x128.BroadcastsInDim S10000x128 (![0, 1] : Fin 2 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  dot_S1000000x64_S64x128_S1000000x128_1_0_0_1_n_n_wf : DotDims.WF S1000000x64 S64x128 S1000000x128 [1] [0] [0] [1] [] []
  dot_S1000000x128_S128x128_S1000000x128_1_0_0_1_n_n_wf : DotDims.WF S1000000x128 S128x128 S1000000x128 [1] [0] [0] [1] [] []
  scatter_S10000x128_S1000000x1_S1000000x128_1_0_0_1_wf : ScatterDims.WF S10000x128 S1000000x1 S1000000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []

variable [Facts₀]

def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S10000x128_S1000000x1_S1000000x128_1_0_0_1 : ScatterDims S10000x128 S1000000x1 S1000000x128 where
  updateWindowDims := [1]
  insertedWindowDims := [0]
  scatterDimsToOperandDims := [0]
  indexVectorDim := 1
  wf := scatter_S10000x128_S1000000x1_S1000000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KernelRun.lean ====
/-
  The idealized kernel program's run, with every buffer named at the end.

  The program is: two casts of the phi weights, the phi region (100 row blocks of 10000 rows), the integer operations
  that turn the identifiers into segment numbers and the scatter-add that pools the rows by segment, and the rho region
  (one block). The run below is the launch over those six segments; what it adds to the frame statement is the END
  CONTENTS: after every weakly fair execution each unscoped buffer of a core holds the last boundary's contents W6,
  the fold of the host operations and of the two regions' write-backs over the launch memory. The result buffer and
  the arguments are read off it.
-/
import proofs.«126781_j2087354105980_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer ends at the last boundary's
    contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.RunV

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«126781_j2087354105980_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«126781_j2087354105980_1_alg».proof.Proof.LibMatmulPlain
import proofs.«126781_j2087354105980_1_alg».proof.Proof.LibDotGeneralPlain
import proofs.«126781_j2087354105980_1_alg».proof.Proof.LibHostBroadcast
import proofs.«126781_j2087354105980_1_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.KernelRegion0.lean ====
/-
  The phi region's result array.

  The phi kernel runs at 100 grid points. At point t it stages rows 10000 t, ..., 10000 t + 9999 of the input matrix x
  (window 0's block index is (t, 0)), the two weight matrices and the two bias vectors whole (their block indices are
  zero), and writes its body's result to rows 10000 t, ..., 10000 t + 9999 of the result array (window 5's block index
  is (t, 0)). The 100 output blocks tile the 1000000 rows: row n lies in block n / 10000.
  So if G is a 1000000 x 128 array whose rows 10000 t ... are, for every t, the body's arithmetic on rows 10000 t ... of x
  (and the shared operands), then the result array after the region is G. Stated at any contents V of the buffers at the
  region's entry and for any reading of the floats; which G it is, is a matter of arithmetic and is not decided here.
-/
import proofs.«126781_j2087354105980_1_alg».proof.Proof.Gen.KernelIdeal.Frame
import proofs.«126781_j2087354105980_1_alg».proof.Proof.LibRowBlock
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.LibRowBlock

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## The block indices over the 100 grid points -/

/-- The input matrix moves down one block of rows per point. -/
theorem idx0_0 : ∀ t : Fin cfg0.N, win0_0.index t (0 : Fin 2) = t.val ∧ win0_0.index t (1 : Fin 2) = 0 :=
  (by decide +kernel : ∀ t : Fin grid0.N, _)
/-- So does the result. -/
theorem idx0_5 : ∀ t : Fin cfg0.N, win0_5.index t (0 : Fin 2) = t.val ∧ win0_5.index t (1 : Fin 2) = 0 :=
  (by decide +kernel : ∀ t : Fin grid0.N, _)
/-- The weights and biases stay. -/
theorem idx0_1 : ∀ t : Fin cfg0.N, win0_1.index t = fun _ => 0 := (by decide +kernel : ∀ t : Fin grid0.N, _)
theorem idx0_2 : ∀ t : Fin cfg0.N, win0_2.index t = fun _ => 0 := (by decide +kernel : ∀ t : Fin grid0.N, _)
theorem idx0_3 : ∀ t : Fin cfg0.N, win0_3.index t = fun _ => 0 := (by decide +kernel : ∀ t : Fin grid0.N, _)
theorem idx0_4 : ∀ t : Fin cfg0.N, win0_4.index t = fun _ => 0 := (by decide +kernel : ∀ t : Fin grid0.N, _)

/-! ## The shared operands' blocks are their arrays -/

/-- The first weight matrix. -/
theorem blk0_1 (c : Dev nD) (t : Fin cfg0.N) : (iblk0 V c 1 t : Vec F S64x128 .bf16) = V c main_v0 := by
  funext y
  show V c main_v0 (((cfg0.win 1).blk t).view.emb y) = V c main_v0 y
  refine congrArg _ ?_
  have e := idx0_1 t
  funext a; apply Fin.ext
  match a with
  | ⟨0, _⟩ => show win0_1.index t (0 : Fin 2) * 64 + 1 * (y 0).val = (y 0).val; rw [e]; show 0 * 64 + 1 * (y 0).val = (y 0).val; omega
  | ⟨1, _⟩ => show win0_1.index t (1 : Fin 2) * 128 + 1 * (y 1).val = (y 1).val; rw [e]; show 0 * 128 + 1 * (y 1).val = (y 1).val; omega

/-- The first bias vector. -/
theorem blk0_2 (c : Dev nD) (t : Fin cfg0.N) : (iblk0 V c 2 t : Vec F S128 .f32) = V c main_arg3 := by
  funext y
  show V c main_arg3 (((cfg0.win 2).blk t).view.emb y) = V c main_arg3 y
  refine congrArg _ ?_
  have e := idx0_2 t
  funext a; apply Fin.ext
  match a with
  | ⟨0, _⟩ => show win0_2.index t (0 : Fin 1) * 128 + 1 * (y 0).val = (y 0).val; rw [e]; show 0 * 128 + 1 * (y 0).val = (y 0).val; omega

/-- The second weight matrix. -/
theorem blk0_3 (c : Dev nD) (t : Fin cfg0.N) : (iblk0 V c 3 t : Vec F S128x128 .bf16) = V c main_v1 := by
  funext y
  show V c main_v1 (((cfg0.win 3).blk t).view.emb y) = V c main_v1 y
  refine congrArg _ ?_
  have e := idx0_3 t
  funext a; apply Fin.ext
  match a with
  | ⟨0, _⟩ => show win0_3.index t (0 : Fin 2) * 128 + 1 * (y 0).val = (y 0).val; rw [e]; show 0 * 128 + 1 * (y 0).val = (y 0).val; omega
  | ⟨1, _⟩ => show win0_3.index t (1 : Fin 2) * 128 + 1 * (y 1).val = (y 1).val; rw [e]; show 0 * 128 + 1 * (y 1).val = (y 1).val; omega

/-- The second bias vector. -/
theorem blk0_4 (c : Dev nD) (t : Fin cfg0.N) : (iblk0 V c 4 t : Vec F S128 .f32) = V c main_arg5 := by
  funext y
  show V c main_arg5 (((cfg0.win 4).blk t).view.emb y) = V c main_arg5 y
  refine congrArg _ ?_
  have e := idx0_4 t
  funext a; apply Fin.ext
  match a with
  | ⟨0, _⟩ => show win0_4.index t (0 : Fin 1) * 128 + 1 * (y 0).val = (y 0).val; rw [e]; show 0 * 128 + 1 * (y 0).val = (y 0).val; omega

/-! ## The input block is a block of rows -/

/-- At point t the input window stages rows 10000 t ... of x. -/
theorem rows0_0 (c : Dev nD) (t : Fin cfg0.N) :
    RowBlk (t.val * 10000) (iblk0 V c 0 t : Vec F S10000x64 .f32) (V c main_arg0 : Vec F S1000000x64 .f32) :=
  RowBlk.of_read (M := 10000) (M' := 1000000) (N := 64) (V c main_arg0 : Vec F S1000000x64 .f32)
    (fun j => ((cfg0.win 0).blk t).view.emb j)
    (fun j => by
      have e := (idx0_0 t).1
      show win0_0.index t (0 : Fin 2) * 10000 + 1 * (j 0).val = t.val * 10000 + (j 0).val
      rw [e]; omega)
    (fun j => by
      have e := (idx0_0 t).2
      show win0_0.index t (1 : Fin 2) * 64 + 1 * (j 1).val = (j 1).val
      rw [e]; omega)

/-- The body's arithmetic at point t, on the row block of x and the shared operands as the region finds them. -/
def body (c : Dev nD) (t : Fin cfg0.N) : FVec F S10000x128 .f32 :=
  k0_pay1 (iblk0 V c 0 t) (V c main_v0) (V c main_arg3) (V c main_v1) (V c main_arg5)

/-! ## From the blocks to the array -/

/-- What point t writes back is block t of G, when the body's result at t is rows 10000 t ... of G. -/
theorem flushed0_5 (c : Dev nD) (G : FVec F S1000000x128 .f32) (hG : ∀ t : Fin cfg0.N, RowBlk (t.val * 10000) (body V c t) G)
    (t : Fin cfg0.N) : (dat0 V c).flushed 5 t = ((cfg0.win 5).blk t).view.read (Elt F) G := by
  show (cfg0.win 5).cut (grid0.coords t) ((dat0 V c).after 5 t) = _
  rw [after0_5]
  unfold out0_5
  rw [View.canon_unit_zero zero2]
  simp only [View.ld_unit_zero (S := S10000x64) zero2, View.ld_unit_zero (S := S64x128) zero2,
    View.ld_unit_zero (S := S128x128) zero2, View.ld_unit_zero (S := S128) zero1]
  rw [blk0_1 V c t, blk0_2 V c t, blk0_3 V c t, blk0_4 V c t]
  funext y
  show body V c t y = G (((cfg0.win 5).blk t).view.emb y)
  refine (hG t).apply y _ ?_ ?_
  · have e := (idx0_5 t).1
    show win0_5.index t (0 : Fin 2) * 10000 + 1 * (y 0).val = t.val * 10000 + (y 0).val
    rw [e]; omega
  · have e := (idx0_5 t).2
    show win0_5.index t (1 : Fin 2) * 128 + 1 * (y 1).val = (y 1).val
    rw [e]; omega

/-- Row n of the result array lies in the block of point n / 10000. -/
theorem cover0_5 (i : S1000000x128.Idx) :
    ∃ t : Fin cfg0.N, (cfg0.win 5).flush t = true ∧ i ∈ ((cfg0.win 5).blk t).view.set := by
  have hi0 : (i 0).val < 1000000 := (i 0).isLt
  have hi1 : (i 1).val < 128 := (i 1).isLt
  have hq : (i 0).val / 10000 < cfg0.N := by show (i 0).val / 10000 < 100; omega
  refine ⟨⟨(i 0).val / 10000, hq⟩, flush0_5 _, ?_⟩
  show i ∈ ((View.whole main_v2).slice (win0_5.rect ⟨(i 0).val / 10000, hq⟩)).set
  rw [View.set_slice_whole, Rect.mem_set_unit]
  have e0 : win0_5.index ⟨(i 0).val / 10000, hq⟩ (0 : Fin 2) = (i 0).val / 10000 := (idx0_5 ⟨(i 0).val / 10000, hq⟩).1
  have e1 := (idx0_5 ⟨(i 0).val / 10000, hq⟩).2
  intro a
  match a with
  | ⟨0, _⟩ =>
    show win0_5.index ⟨(i 0).val / 10000, hq⟩ (0 : Fin 2) * 10000 ≤ (i 0).val
      ∧ (i 0).val < win0_5.index ⟨(i 0).val / 10000, hq⟩ (0 : Fin 2) * 10000 + 10000
    rw [e0]; omega
  | ⟨1, _⟩ =>
    show win0_5.index ⟨(i 0).val / 10000, hq⟩ (1 : Fin 2) * 128 ≤ (i 1).val
      ∧ (i 1).val < win0_5.index ⟨(i 0).val / 10000, hq⟩ (1 : Fin 2) * 128 + 128
    rw [e1]; omega

/-- THE RESULT ARRAY after the phi region is G, when every point's body result is the matching block of rows of G. -/
theorem arrAt0_5 (c : Dev nD) (G : FVec F S1000000x128 .f32) (hG : ∀ t : Fin cfg0.N, RowBlk (t.val * 10000) (body V c t) G) :
    (dat0 V c).arrAt 5 cfg0.N = G :=
  (dat0 V c).arrAt_eq_of_cover 5 G (fun t _ => flushed0_5 V c G hG t) cover0_5

end Cert.KernelIdeal.Region0

end
-- ==== Proof.KernelRegion1.lean ====
/-
  The rho region's result array.

  The rho kernel runs at one grid point, and each of its eight windows has ONE block, the whole array (every block
  index is zero on every axis). So the block a window stages is the array itself, the block the output window writes
  back covers the whole result array, and after the region the result array is the body's arithmetic applied to the
  seven operand arrays as the region finds them. Stated at any contents V of the buffers at the region's entry.
-/
import proofs.«126781_j2087354105980_1_alg».proof.Proof.Gen.KernelIdeal.Frame
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## Every window's block index is zero at the one grid point -/

theorem idx1_0 : ∀ t : Fin cfg1.N, win1_0.index t = fun _ => 0 := (by decide +kernel : ∀ t : Fin grid1.N, _)
theorem idx1_1 : ∀ t : Fin cfg1.N, win1_1.index t = fun _ => 0 := (by decide +kernel : ∀ t : Fin grid1.N, _)
theorem idx1_2 : ∀ t : Fin cfg1.N, win1_2.index t = fun _ => 0 := (by decide +kernel : ∀ t : Fin grid1.N, _)
theorem idx1_3 : ∀ t : Fin cfg1.N, win1_3.index t = fun _ => 0 := (by decide +kernel : ∀ t : Fin grid1.N, _)
theorem idx1_4 : ∀ t : Fin cfg1.N, win1_4.index t = fun _ => 0 := (by decide +kernel : ∀ t : Fin grid1.N, _)
theorem idx1_5 : ∀ t : Fin cfg1.N, win1_5.index t = fun _ => 0 := (by decide +kernel : ∀ t : Fin grid1.N, _)
theorem idx1_6 : ∀ t : Fin cfg1.N, win1_6.index t = fun _ => 0 := (by decide +kernel : ∀ t : Fin grid1.N, _)
theorem idx1_7 : ∀ t : Fin cfg1.N, win1_7.index t = fun _ => 0 := (by decide +kernel : ∀ t : Fin grid1.N, _)

/-! ## Each input window's block is its array -/

/-- Window 0's one block is its whole array. -/
theorem blk1_0 (c : Dev nD) (t : Fin cfg1.N) : (iblk1 V c 0 t : Vec F S10000x128 .f32) = V c main_v12 := by
  funext y
  show V c main_v12 (((cfg1.win 0).blk t).view.emb y) = V c main_v12 y
  refine congrArg _ ?_
  have e := idx1_0 t
  funext a; apply Fin.ext
  match a with
  | ⟨0, _⟩ => show win1_0.index t (0 : Fin 2) * 10000 + 1 * (y 0).val = (y 0).val; rw [e]; show 0 * 10000 + 1 * (y 0).val = (y 0).val; omega
  | ⟨1, _⟩ => show win1_0.index t (1 : Fin 2) * 128 + 1 * (y 1).val = (y 1).val; rw [e]; show 0 * 128 + 1 * (y 1).val = (y 1).val; omega

/-- Window 1's one block is its whole array. -/
theorem blk1_1 (c : Dev nD) (t : Fin cfg1.N) : (iblk1 V c 1 t : Vec F S128x256 .f32) = V c main_arg6 := by
  funext y
  show V c main_arg6 (((cfg1.win 1).blk t).view.emb y) = V c main_arg6 y
  refine congrArg _ ?_
  have e := idx1_1 t
  funext a; apply Fin.ext
  match a with
  | ⟨0, _⟩ => show win1_1.index t (0 : Fin 2) * 128 + 1 * (y 0).val = (y 0).val; rw [e]; show 0 * 128 + 1 * (y 0).val = (y 0).val; omega
  | ⟨1, _⟩ => show win1_1.index t (1 : Fin 2) * 256 + 1 * (y 1).val = (y 1).val; rw [e]; show 0 * 256 + 1 * (y 1).val = (y 1).val; omega

/-- Window 2's one block is its whole array. -/
theorem blk1_2 (c : Dev nD) (t : Fin cfg1.N) : (iblk1 V c 2 t : Vec F S256 .f32) = V c main_arg7 := by
  funext y
  show V c main_arg7 (((cfg1.win 2).blk t).view.emb y) = V c main_arg7 y
  refine congrArg _ ?_
  have e := idx1_2 t
  funext a; apply Fin.ext
  match a with
  | ⟨0, _⟩ => show win1_2.index t (0 : Fin 1) * 256 + 1 * (y 0).val = (y 0).val; rw [e]; show 0 * 256 + 1 * (y 0).val = (y 0).val; omega

/-- Window 3's one block is its whole array. -/
theorem blk1_3 (c : Dev nD) (t : Fin cfg1.N) : (iblk1 V c 3 t : Vec F S256x128 .f32) = V c main_arg8 := by
  funext y
  show V c main_arg8 (((cfg1.win 3).blk t).view.emb y) = V c main_arg8 y
  refine congrArg _ ?_
  have e := idx1_3 t
  funext a; apply Fin.ext
  match a with
  | ⟨0, _⟩ => show win1_3.index t (0 : Fin 2) * 256 + 1 * (y 0).val = (y 0).val; rw [e]; show 0 * 256 + 1 * (y 0).val = (y 0).val; omega
  | ⟨1, _⟩ => show win1_3.index t (1 : Fin 2) * 128 + 1 * (y 1).val = (y 1).val; rw [e]; show 0 * 128 + 1 * (y 1).val = (y 1).val; omega

/-- Window 4's one block is its whole array. -/
theorem blk1_4 (c : Dev nD) (t : Fin cfg1.N) : (iblk1 V c 4 t : Vec F S128 .f32) = V c main_arg9 := by
  funext y
  show V c main_arg9 (((cfg1.win 4).blk t).view.emb y) = V c main_arg9 y
  refine congrArg _ ?_
  have e := idx1_4 t
  funext a; apply Fin.ext
  match a with
  | ⟨0, _⟩ => show win1_4.index t (0 : Fin 1) * 128 + 1 * (y 0).val = (y 0).val; rw [e]; show 0 * 128 + 1 * (y 0).val = (y 0).val; omega

/-- Window 5's one block is its whole array. -/
theorem blk1_5 (c : Dev nD) (t : Fin cfg1.N) : (iblk1 V c 5 t : Vec F S128x1 .f32) = V c main_arg10 := by
  funext y
  show V c main_arg10 (((cfg1.win 5).blk t).view.emb y) = V c main_arg10 y
  refine congrArg _ ?_
  have e := idx1_5 t
  funext a; apply Fin.ext
  match a with
  | ⟨0, _⟩ => show win1_5.index t (0 : Fin 2) * 128 + 1 * (y 0).val = (y 0).val; rw [e]; show 0 * 128 + 1 * (y 0).val = (y 0).val; omega
  | ⟨1, _⟩ => show win1_5.index t (1 : Fin 2) * 1 + 1 * (y 1).val = (y 1).val; rw [e]; show 0 * 1 + 1 * (y 1).val = (y 1).val; omega

/-- Window 6's one block is its whole array. -/
theorem blk1_6 (c : Dev nD) (t : Fin cfg1.N) : (iblk1 V c 6 t : Vec F S1 .f32) = V c main_arg11 := by
  funext y
  show V c main_arg11 (((cfg1.win 6).blk t).view.emb y) = V c main_arg11 y
  refine congrArg _ ?_
  have e := idx1_6 t
  funext a; apply Fin.ext
  match a with
  | ⟨0, _⟩ => show win1_6.index t (0 : Fin 1) * 1 + 1 * (y 0).val = (y 0).val; rw [e]; show 0 * 1 + 1 * (y 0).val = (y 0).val; omega

/-! ## The output window -/

/-- An entry of the output's one block sits in the result array at its own coordinates. -/
theorem emb1_7 (t : Fin cfg1.N) (y : S10000x1.Idx) : ((cfg1.win 7).blk t).view.emb y = y := by
  have e := idx1_7 t
  funext a; apply Fin.ext
  match a with
  | ⟨0, _⟩ => show win1_7.index t (0 : Fin 2) * 10000 + 1 * (y 0).val = (y 0).val; rw [e]; show 0 * 10000 + 1 * (y 0).val = (y 0).val; omega
  | ⟨1, _⟩ => show win1_7.index t (1 : Fin 2) * 1 + 1 * (y 1).val = (y 1).val; rw [e]; show 0 * 1 + 1 * (y 1).val = (y 1).val; omega

/-- The body's arithmetic on the seven operand arrays as the region finds them. -/
def result (c : Dev nD) : FVec F S10000x1 .f32 :=
  k1_pay1 (V c main_v12) (V c main_arg6) (V c main_arg7) (V c main_arg8) (V c main_arg9) (V c main_arg10) (V c main_arg11)

/-- What the one grid point writes back is the one block of that array. -/
theorem flushed1_7 (c : Dev nD) (t : Fin cfg1.N) :
    (dat1 V c).flushed 7 t = ((cfg1.win 7).blk t).view.read (Elt F) (result V c) := by
  show (cfg1.win 7).cut (grid1.coords t) ((dat1 V c).after 7 t) = _
  rw [after1_7]
  unfold out1_7
  rw [View.canon_unit_zero zero2]
  simp only [View.ld_unit_zero (S := S10000x128) zero2, View.ld_unit_zero (S := S128x256) zero2,
    View.ld_unit_zero (S := S256x128) zero2, View.ld_unit_zero (S := S128x1) zero2, View.ld_unit_zero (S := S256) zero1,
    View.ld_unit_zero (S := S128) zero1, View.ld_unit_zero (S := S1) zero1]
  rw [blk1_0 V c t, blk1_1 V c t, blk1_2 V c t, blk1_3 V c t, blk1_4 V c t, blk1_5 V c t, blk1_6 V c t]
  funext y
  show result V c y = result V c (((cfg1.win 7).blk t).view.emb y)
  rw [emb1_7 t y]

/-- Every entry of the result array is in the one block. -/
theorem cover1_7 (i : S10000x1.Idx) : ∃ t : Fin cfg1.N, (cfg1.win 7).flush t = true ∧ i ∈ ((cfg1.win 7).blk t).view.set := by
  refine ⟨t1_0, flush1_7 t1_0, ?_⟩
  show i ∈ ((View.whole main_v13).slice (win1_7.rect t1_0)).set
  rw [View.set_slice_whole, Rect.mem_set_unit]
  have e := idx1_7 t1_0
  intro a
  match a with
  | ⟨0, _⟩ =>
    show win1_7.index t1_0 (0 : Fin 2) * 10000 ≤ (i 0).val ∧ (i 0).val < win1_7.index t1_0 (0 : Fin 2) * 10000 + 10000
    rw [e]; have h : (i 0).val < 10000 := (i 0).isLt
    show 0 * 10000 ≤ (i 0).val ∧ (i 0).val < 0 * 10000 + 10000; omega
  | ⟨1, _⟩ =>
    show win1_7.index t1_0 (1 : Fin 2) * 1 ≤ (i 1).val ∧ (i 1).val < win1_7.index t1_0 (1 : Fin 2) * 1 + 1
    rw [e]; have h : (i 1).val < 1 := (i 1).isLt
    show 0 * 1 ≤ (i 1).val ∧ (i 1).val < 0 * 1 + 1; omega

/-- THE RESULT ARRAY after the rho region: the body's arithmetic on the operand arrays at the region's entry. -/
theorem arrAt1_7 (c : Dev nD) : (dat1 V c).arrAt 7 cfg1.N = result V c :=
  (dat1 V c).arrAt_eq_of_cover 7 (result V c) (fun t _ => flushed1_7 V c t) cover1_7

end Cert.KernelIdeal.Region1

end
-- ==== Proof.KernelGlue.lean ====
/-
  What the two regions find in their operand arrays.

  Before the phi region the program casts the two phi weight matrices; the region's other operands are arguments.
  Between the regions it computes, from the identifiers, every row's segment number (zero, then the running count of
  the positions where the identifier changes) and adds up the phi region's result rows by segment, from zero: that
  sum is the rho region's first operand, its other operands are arguments. Here each of these buffers is read back,
  through the fold of the host operations over the launch memory, as a function of the arguments (and of the phi
  region's result array). For any reading of the floats.
-/
import proofs.«126781_j2087354105980_1_alg».proof.Proof.Gen.KernelIdeal.Frame
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The segment of every row, as a column: zero, then the running count of the positions where the identifier changes. -/
def segIds (ids : IVec S1000000 32) : IVec S1000000x1 32 :=
  broadcastInDim S1000000x1 ![0] bcast_S1000000_S1000000x1_0
    (concatenate S1000000 0
      [⟨S1, broadcastInDim S1 ![] bcast_S_S1 (constantI S_ 32 0#32)⟩,
       ⟨S999999, Host.reduceWindow IntOp.addi ![999999] ![1] ![999998] ![0]
          (extui 32 (cmpi .ne (extractStridedSlice S999999 ![1] ids slices_S1000000_S999999_1)
            (extractStridedSlice S999999 ![0] ids slices_S1000000_S999999_0)) natLt_1_32)
          (broadcastInDim S_ ![] bcast_S_S_ (constantI S_ 32 0#32))
          reduceWindows_S999999_S999999_w999999s1p999998_0 h_S_⟩]
      concatenates_S1_S999999_S1000000_d0)

/-- The rows of h added up by segment, from zero. -/
def pool (ids : IVec S1000000 32) (h : FVec F S1000000x128 .f32) : FVec F S10000x128 .f32 :=
  Host.scatterAdd scatter_S10000x128_S1000000x1_S1000000x128_1_0_0_1
    (broadcastInDim S10000x128 ![] bcast_S_S10000x128 (constant S_ .f32 0x00000000#32)) (segIds ids) h

/-! ## At the phi region's entry -/

theorem V1_v0 (c : Dev nD) :
    V1 m ρ c main_v0 = truncf .bf16 (m ((c.tc : Thread nD τ).loc main_arg2)) bitsLt_bf16_f32 := by
  show StableHlo.after hostOps0 (W0 m ρ c) (Proc.devRef .tc main_v0) = _
  dsimp only [hostOps0]
  after_results

theorem V1_v1 (c : Dev nD) :
    V1 m ρ c main_v1 = truncf .bf16 (m ((c.tc : Thread nD τ).loc main_arg4)) bitsLt_bf16_f32 := by
  show StableHlo.after hostOps0 (W0 m ρ c) (Proc.devRef .tc main_v1) = _
  dsimp only [hostOps0]
  after_results

theorem V1_arg0 (c : Dev nD) : V1 m ρ c main_arg0 = m ((c.tc : Thread nD τ).loc main_arg0) := by
  show StableHlo.after hostOps0 (W0 m ρ c) (Proc.devRef .tc main_arg0) = _
  dsimp only [hostOps0]
  after_results

theorem V1_arg3 (c : Dev nD) : V1 m ρ c main_arg3 = m ((c.tc : Thread nD τ).loc main_arg3) := by
  show StableHlo.after hostOps0 (W0 m ρ c) (Proc.devRef .tc main_arg3) = _
  dsimp only [hostOps0]
  after_results

theorem V1_arg5 (c : Dev nD) : V1 m ρ c main_arg5 = m ((c.tc : Thread nD τ).loc main_arg5) := by
  show StableHlo.after hostOps0 (W0 m ρ c) (Proc.devRef .tc main_arg5) = _
  dsimp only [hostOps0]
  after_results

/-! ## At the rho region's entry -/

/-- The identifiers are as launched when the phi region is left: no window of it is over them and the casts do not
    write them. -/
theorem W2_arg1 (c : Dev nD) : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  dsimp only [hostOps0]
  after_results

-- the two sides differ only by the typed references' transports along `rfl`; the operations themselves stay folded
attribute [local irreducible] Host.reduceWindow Host.scatterAdd concatenate extractStridedSlice broadcastInDim extui cmpi in
/-- The rho region's first operand: the phi region's result rows added up by segment. -/
theorem V5_v12 (c : Dev nD) :
    V5 m ρ c main_v12 = pool (m ((c.tc : Thread nD τ).loc main_arg1)) (W2 m ρ c (Proc.devRef .tc main_v2)) := by
  show StableHlo.after hostOps1_2 (StableHlo.after hostOps1_1 (StableHlo.after hostOps1 (W2 m ρ c))) (Proc.devRef .tc main_v12) = _
  dsimp only [hostOps1_2, hostOps1_1, hostOps1]
  after_results
  rw [W2_arg1 m ρ c]
  rfl

end Cert.KernelIdeal.Glue

end
-- ==== Proof.RefTerm.lean ====
/-
  The reference as three stages, each one function of whole arrays.

  phi: two dense layers with a maximum against zero after each, row by row of the 1000000 x 64 input:
       h = max(max(x . W1 + b1, 0) . W2 + b2, 0).
  pool: the rows of h added up by segment. Row n goes to segment s(n), where s(0) = 0 and s(n) is the number of
       positions 1 <= j <= n at which the identifier differs from the one before it (a running count of the changes);
       pooled(s, :) = sum of the rows h(n, :) with s(n) = s, from zero.
  rho: two dense layers with a maximum against zero after each, a third dense layer to one column, and the logistic
       function 1 / (1 + exp(-o)) of that column, spelled with a negation, an exponential, a sum and a quotient.
  Each stage is stated for any reading of the floats; the integer part of pool does not depend on that reading.
-/
import proofs.«126781_j2087354105980_1_alg».proof.Proof.Gen.ReferenceIdeal

noncomputable section

namespace Cert.ReferenceIdeal.RefV

open Cert.ReferenceIdeal Cert.ReferenceIdeal.Facts₀ Cert.ReferenceIdeal.Facts Idealize.ShloMosaic

variable {F : FTy → Type} [FloatOps F]

/-- The two dense layers applied to every row: max(max(x . W1 + b1, 0) . W2 + b2, 0). -/
def phi (x : FVec F S1000000x64 .f32) (w1 : FVec F S64x128 .f32) (b1 : FVec F S128 .f32) (w2 : FVec F S128x128 .f32)
    (b2 : FVec F S128 .f32) : FVec F S1000000x128 .f32 :=
  maximumf
    (addf
      (Host.dotGeneral dot_S1000000x128_S128x128_S1000000x128_1_0_0_1_n_n none
        (maximumf
          (addf (Host.dotGeneral dot_S1000000x64_S64x128_S1000000x128_1_0_0_1_n_n none x w1)
            (broadcastInDim S1000000x128 ![0, 1] bcast_S1x128_S1000000x128_0_1 (broadcastInDim S1x128 ![1] bcast_S128_S1x128_1 b1)))
          (broadcastInDim S1000000x128 ![] bcast_S_S1000000x128 (constant S_ .f32 0x00000000#32)))
        w2)
      (broadcastInDim S1000000x128 ![0, 1] bcast_S1x128_S1000000x128_0_1 (broadcastInDim S1x128 ![1] bcast_S128_S1x128_1 b2)))
    (broadcastInDim S1000000x128 ![] bcast_S_S1000000x128 (constant S_ .f32 0x00000000#32))

/-- The segment of every row, as a column: zero, then the running count of the positions where the identifier changes. -/
def segIds (ids : IVec S1000000 32) : IVec S1000000x1 32 :=
  broadcastInDim S1000000x1 ![0] bcast_S1000000_S1000000x1_0
    (concatenate S1000000 0
      [⟨S1, broadcastInDim S1 ![] bcast_S_S1 (constantI S_ 32 0#32)⟩,
       ⟨S999999, Host.reduceWindow IntOp.addi ![999999] ![1] ![999998] ![0]
          (extui 32 (cmpi .ne (extractStridedSlice S999999 ![1] ids slices_S1000000_S999999_1)
            (extractStridedSlice S999999 ![0] ids slices_S1000000_S999999_0)) natLt_1_32)
          (broadcastInDim S_ ![] bcast_S_S_ (constantI S_ 32 0#32))
          reduceWindows_S999999_S999999_w999999s1p999998_0 h_S_⟩]
      concatenates_S1_S999999_S1000000_d0)

/-- The rows of h added up by segment, from zero. -/
def pool (ids : IVec S1000000 32) (h : FVec F S1000000x128 .f32) : FVec F S10000x128 .f32 :=
  Host.scatterAdd scatter_S10000x128_S1000000x1_S1000000x128_1_0_0_1
    (broadcastInDim S10000x128 ![] bcast_S_S10000x128 (constant S_ .f32 0x00000000#32)) (segIds ids) h

/-- The column before the logistic function: max(max(p . W1 + b1, 0) . W2 + b2, 0) . W3 + b3. -/
def rhoPre (p : FVec F S10000x128 .f32) (w1 : FVec F S128x256 .f32) (b1 : FVec F S256 .f32) (w2 : FVec F S256x128 .f32)
    (b2 : FVec F S128 .f32) (w3 : FVec F S128x1 .f32) (b3 : FVec F S1 .f32) : FVec F S10000x1 .f32 :=
  addf
    (Host.dotGeneral dot_S10000x128_S128x1_S10000x1_1_0_0_1_n_n none
      (maximumf
        (addf
          (Host.dotGeneral dot_S10000x256_S256x128_S10000x128_1_0_0_1_n_n none
            (maximumf
              (addf (Host.dotGeneral dot_S10000x128_S128x256_S10000x256_1_0_0_1_n_n none p w1)
                (broadcastInDim S10000x256 ![0, 1] bcast_S1x256_S10000x256_0_1 (broadcastInDim S1x256 ![1] bcast_S256_S1x256_1 b1)))
              (broadcastInDim S10000x256 ![] bcast_S_S10000x256 (constant S_ .f32 0x00000000#32)))
            w2)
          (broadcastInDim S10000x128 ![0, 1] bcast_S1x128_S10000x128_0_1 (broadcastInDim S1x128 ![1] bcast_S128_S1x128_1 b2)))
        (broadcastInDim S10000x128 ![] bcast_S_S10000x128 (constant S_ .f32 0x00000000#32)))
      w3)
    (broadcastInDim S10000x1 ![0, 1] bcast_S1x1_S10000x1_0_1 (broadcastInDim S1x1 ![1] bcast_S1_S1x1_1 b3))

/-- The logistic function of the column, spelled 1 / (1 + exp(-o)). -/
def rho (p : FVec F S10000x128 .f32) (w1 : FVec F S128x256 .f32) (b1 : FVec F S256 .f32) (w2 : FVec F S256x128 .f32)
    (b2 : FVec F S128 .f32) (w3 : FVec F S128x1 .f32) (b3 : FVec F S1 .f32) : FVec F S10000x1 .f32 :=
  Host.divf (broadcastInDim S10000x1 ![] bcast_S_S10000x1 (constant S_ .f32 0x3F800000#32))
    (addf (broadcastInDim S10000x1 ![] bcast_S_S10000x1 (constant S_ .f32 0x3F800000#32))
      (Host.exp (Host.negf (rhoPre p w1 b1 w2 b2 w3 b3))))

/-- The whole reference: rho of the pooled phi. -/
def out (x : FVec F S1000000x64 .f32) (ids : IVec S1000000 32) (pw1 : FVec F S64x128 .f32) (pb1 : FVec F S128 .f32)
    (pw2 : FVec F S128x128 .f32) (pb2 : FVec F S128 .f32) (rw1 : FVec F S128x256 .f32) (rb1 : FVec F S256 .f32)
    (rw2 : FVec F S256x128 .f32) (rb2 : FVec F S128 .f32) (rw3 : FVec F S128x1 .f32) (rb3 : FVec F S1 .f32) :
    FVec F S10000x1 .f32 :=
  rho (pool ids (phi x pw1 pb1 pw2 pb2)) rw1 rb1 rw2 rb2 rw3 rb3

end Cert.ReferenceIdeal.RefV

end
-- ==== Proof.LibSoftplusForms.lean ====
/-
  jnp's softplus, log(1 + exp u) computed as max(u, 0) + log1p(exp(-|u - 0|)) with the case u - 0 ≠ u - 0 guarded, at
  one extended real, in the two spellings the programs use: the host's (an unordered "not equal" test, a negation)
  and the kernel's (the ordered test, a subtraction from zero). On the extended reals an entry never differs from
  itself, so both tests fail and both spellings are the unguarded branch; and 0 - a = -a. Hence one function.
-/
import Idealize.ShloMosaic.PureOps.Ideal.Laws

noncomputable section

namespace Cert.LibSoftplusForms

open Idealize.ShloMosaic

/-- The host's spelling at one entry. -/
def spHost (u : Ideal .f32) : Ideal .f32 :=
  Scalar.select
    (FloatOps.cmpf .une (FloatOps.subf u (FloatOps.ofBits .f32 0x00000000#32)) (FloatOps.subf u (FloatOps.ofBits .f32 0x00000000#32)))
    (FloatOps.addf u (FloatOps.ofBits .f32 0x00000000#32))
    (FloatOps.addf (FloatOps.maximumf u (FloatOps.ofBits .f32 0x00000000#32))
      (FloatOps.hostUnary .log1p (FloatOps.hostUnary .exp (FloatOps.hostNegf (FloatOps.hostAbsf
        (FloatOps.subf u (FloatOps.ofBits .f32 0x00000000#32)))))))

/-- The kernel's spelling at one entry. -/
def spKernel (u : Ideal .f32) : Ideal .f32 :=
  Scalar.select
    (FloatOps.cmpf .one (FloatOps.subf u (Scalar.ofBits .f32 0x00000000#32)) (FloatOps.subf u (Scalar.ofBits .f32 0x00000000#32)))
    (FloatOps.addf u (Scalar.ofBits .f32 0x00000000#32))
    (FloatOps.addf (FloatOps.maximumf u (Scalar.ofBits .f32 0x00000000#32))
      (FloatOps.log1p (FloatOps.exp (FloatOps.subf (Scalar.ofBits .f32 0x00000000#32)
        (FloatOps.absf (FloatOps.subf u (Scalar.ofBits .f32 0x00000000#32)))))))

/-- The two spellings are one function of the entry. -/
theorem spKernel_eq (u : Ideal .f32) : spKernel u = spHost u := by
  unfold spKernel spHost
  have e : ∀ a : EReal, (Ideal.ofBits .f32 0x00000000#32 : EReal) - a = -a := fun a => by
    rw [Ideal.ofBits_zero_f32, zero_sub]
  show Scalar.select _ _ (_ + Ideal.log1p (Ideal.exp (Ideal.ofBits .f32 0x00000000#32 - _)))
    = Scalar.select _ _ (_ + Ideal.log1p (Ideal.exp (- _)))
  rw [e]
  rfl

end Cert.LibSoftplusForms

end
-- ==== Proof.LibRowBlockOps.lean ====
/-
  Row blocks through the operations the dense stages are spelled with, one lemma per operation so that a stage is read
  from its outermost operation inwards: sums, differences and products entry by entry; the exponential (the kernel's and
  the host's are one function on the extended reals); a scalar constant spread over a block and over the whole matrix;
  a dense layer (a product with a shared matrix from the zero accumulator plus a shared bias row); and jnp's softplus in
  the kernel's and in the host's spelling, which are one function of an entry.
-/
import proofs.«126781_j2087354105980_1_alg».proof.Proof.LibRowBlock
import proofs.«126781_j2087354105980_1_alg».proof.Proof.LibSoftplusForms

noncomputable section

namespace Cert.LibRowBlock

open Idealize.ShloMosaic Idealize.ShloMosaic.ValueIdx Cert.LibSoftplusForms

variable {M M' N K : ℕ} {r : ℕ}

/-- jnp's softplus on an array, in the kernel's spelling. -/
def kSoftplus {S : Shape} (v : FVec Ideal S .f32) : FVec Ideal S .f32 :=
  select (cmpf .one (subf v (broadcast S (Scalar.ofBits .f32 0x00000000#32))) (subf v (broadcast S (Scalar.ofBits .f32 0x00000000#32))))
    (addf v (broadcast S (Scalar.ofBits .f32 0x00000000#32)))
    (addf (maximumf v (broadcast S (Scalar.ofBits .f32 0x00000000#32)))
      (log1p (exp (subf (broadcast S (Scalar.ofBits .f32 0x00000000#32))
        (absf (subf v (broadcast S (Scalar.ofBits .f32 0x00000000#32))))))))

/-- jnp's softplus on an array, in the host's spelling. -/
def hSoftplus {S : Shape} (dims : Fin (⟨0, ![]⟩ : Shape).rank → Fin S.rank) (h : (⟨0, ![]⟩ : Shape).BroadcastsInDim S dims)
    (X : FVec Ideal S .f32) : FVec Ideal S .f32 :=
  select (cmpf .une (subf X (broadcastInDim S dims h (constant ⟨0, ![]⟩ .f32 0x00000000#32)))
      (subf X (broadcastInDim S dims h (constant ⟨0, ![]⟩ .f32 0x00000000#32))))
    (addf X (broadcastInDim S dims h (constant ⟨0, ![]⟩ .f32 0x00000000#32)))
    (addf (maximumf X (broadcastInDim S dims h (constant ⟨0, ![]⟩ .f32 0x00000000#32)))
      (Host.log1p (Host.exp (Host.negf (Host.absf
        (subf X (broadcastInDim S dims h (constant ⟨0, ![]⟩ .f32 0x00000000#32))))))))

theorem kSoftplus_eq {S : Shape} (v : FVec Ideal S .f32) : kSoftplus v = fun i => spHost (v i) :=
  funext fun i => spKernel_eq (v i)

theorem hSoftplus_eq {S : Shape} (dims : Fin (⟨0, ![]⟩ : Shape).rank → Fin S.rank) (h : (⟨0, ![]⟩ : Shape).BroadcastsInDim S dims)
    (X : FVec Ideal S .f32) : hSoftplus dims h X = fun i => spHost (X i) := rfl

namespace RowBlk

theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) := RowBlk.map₂ FloatOps.addf hx hy

theorem subf {φ : FTy} {x y : FVec Ideal ⟨2, ![M, N]⟩ φ} {X Y : FVec Ideal ⟨2, ![M', N]⟩ φ} (hx : RowBlk r x X) (hy : RowBlk r y Y) :
    RowBlk r (Idealize.ShloMosaic.subf x y) (Idealize.ShloMosaic.subf X Y) := RowBlk.map₂ FloatOps.subf hx hy

theorem mulf {φ : FTy} {x y : FVec Ideal ⟨2, ![M, N]⟩ φ} {X Y : FVec Ideal ⟨2, ![M', N]⟩ φ} (hx : RowBlk r x X) (hy : RowBlk r y Y) :
    RowBlk r (Idealize.ShloMosaic.mulf x y) (Idealize.ShloMosaic.mulf X Y) := RowBlk.map₂ FloatOps.mulf hx hy

/-- The kernel's exponential of a block and the host's of the whole matrix. -/
theorem exp_hostExp {φ : FTy} {x : FVec Ideal ⟨2, ![M, N]⟩ φ} {X : FVec Ideal ⟨2, ![M', N]⟩ φ} (hx : RowBlk r x X) :
    RowBlk r (Idealize.ShloMosaic.exp x) (Host.exp X) := RowBlk.map₁ Ideal.exp hx

/-- A scalar constant spread over a block by the kernel and over the whole matrix by the host. -/
theorem splat {φ : FTy} (b : BitVec φ.bits) (dims : Fin (⟨0, ![]⟩ : Shape).rank → Fin (⟨2, ![M', N]⟩ : Shape).rank)
    (h : (⟨0, ![]⟩ : Shape).BroadcastsInDim ⟨2, ![M', N]⟩ dims) :
    RowBlk r (broadcast ⟨2, ![M, N]⟩ (Scalar.ofBits (F := Ideal) φ b))
      (broadcastInDim ⟨2, ![M', N]⟩ dims h (constant (F := Ideal) ⟨0, ![]⟩ φ b)) := RowBlk.const (Ideal.ofBits φ b)

/-- A dense layer: the product with a shared matrix from the zero accumulator, plus a shared bias row. -/
theorem dense {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂)
    (b : FVec Ideal ⟨2, ![1, N]⟩ .f32) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) (hx : RowBlk r x X) :
    RowBlk r (Idealize.ShloMosaic.addf (matmul D prec x w (constant (F := Ideal) ⟨2, ![M, N]⟩ .f32 0x00000000#32)) (broadcastTo ⟨2, ![M, N]⟩ b hb))
      (Idealize.ShloMosaic.addf (Host.dotGeneral D' prec' X w) (broadcastInDim ⟨2, ![M', N]⟩ dims hB b)) :=
  RowBlk.addf (RowBlk.matmul_dot D hD D' hD' prec prec' .single w hx) (RowBlk.rowBias b hb dims hd1 hB)

/-- A product with a shared matrix from the zero accumulator, with no bias. -/
theorem product {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (matmul D prec x w (constant (F := Ideal) ⟨2, ![M, N]⟩ .f32 0x00000000#32)) (Host.dotGeneral D' prec' X w) :=
  RowBlk.matmul_dot D hD D' hD' prec prec' .single w hx

/-- jnp's softplus, the kernel's spelling on a block and the host's on the whole matrix. -/
theorem softplus {x : FVec Ideal ⟨2, ![M, N]⟩ .f32} {X : FVec Ideal ⟨2, ![M', N]⟩ .f32}
    (dims : Fin (⟨0, ![]⟩ : Shape).rank → Fin (⟨2, ![M', N]⟩ : Shape).rank)
    (h : (⟨0, ![]⟩ : Shape).BroadcastsInDim ⟨2, ![M', N]⟩ dims) (hx : RowBlk r x X) :
    RowBlk r (kSoftplus x) (hSoftplus dims h X) := by
  rw [kSoftplus_eq, hSoftplus_eq]
  exact RowBlk.map₁ spHost hx

end RowBlk

end Cert.LibRowBlock

end
-- ==== Proof.LibRowBlockFmt.lean ====
/-
  Row blocks across float formats, and the quotient.

  On the extended reals a change of float format is the identity, so a kernel that narrows its operands before a
  product computes the product of the operands themselves. Stated for row blocks: when the M×K matrix x is rows
  r, …, r+M-1 of the M'×K matrix X as extended reals, and the K×N matrices w and W have the same entries, the
  product of x and w accumulated from zero is the same row block of the host's product of X and W, whatever formats
  the four matrices are labelled with (entry (p, q) of either is the sum over k of row entries times column entries).
  A quotient entry by entry takes row blocks to row blocks, the kernel's division and the host's being one function.
  Generic in the extents.
-/
import proofs.«126781_j2087354105980_1_alg».proof.Proof.LibRowBlock

noncomputable section

open scoped BigOperators

namespace Cert.LibRowBlock.RowBlk

open Idealize.ShloMosaic Idealize.ShloMosaic.ValueIdx

variable {M M' N K : ℕ} {r : ℕ}

/-- A product of a row block with a shared matrix, accumulated from zero, is the row block of the host's product of
    the whole matrix, whatever float formats the four operands are labelled with. -/
theorem matmul_dot_fmt {φ₁ φ₂ ψ₁ ψ₂ : FTy}
    (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    (x : FVec Ideal ⟨2, ![M, K]⟩ φ₁) (X : FVec Ideal ⟨2, ![M', K]⟩ ψ₁)
    (w : FVec Ideal ⟨2, ![K, N]⟩ φ₂) (W : FVec Ideal ⟨2, ![K, N]⟩ ψ₂)
    (hx : RowBlk (α := EReal) r x X) (hw : ∀ i, (w i : EReal) = W i) :
    RowBlk (α := EReal) r (FloatOps.matmul D prec x w (constant (F := Ideal) ⟨2, ![M, N]⟩ .f32 0x00000000#32))
      (FloatOps.dotGeneral D' prec' sched X W) := fun p q h => by
  rw [Cert.LibMatmulPlain.matmul_plain_zero_apply D hD, Cert.LibDotGeneralPlain.dotGeneral_plain_apply D' hD']
  exact Finset.sum_congr rfl fun k _ => by rw [hx p k h, hw]

/-- A quotient entry by entry, the kernel's on a block and the host's on the whole matrix. -/
theorem divf_hostDivf {φ : FTy} {x y : FVec Ideal ⟨2, ![M, N]⟩ φ} {X Y : FVec Ideal ⟨2, ![M', N]⟩ φ}
    (hx : RowBlk r x X) (hy : RowBlk r y Y) :
    RowBlk r (Idealize.ShloMosaic.divf x y) (Host.divf X Y) := RowBlk.map₂ Ideal.div hx hy

end Cert.LibRowBlock.RowBlk

end
-- ==== Proof.LibRows.lean ====
/-
  A vector laid out as a one-row matrix, two ways, and entrywise operations on it.

  A vector of length n becomes the row [1, n] either by a reshape (both sit at row-major position q) or by a broadcast
  that places it along axis 1; the two rows are the same function. An operation applied entry by entry commutes with
  forming the row: in particular 1/sqrt(v + ε) taken on the row with ε splat over the row is the row of
  1/sqrt(v + ε) taken on the vector with ε broadcast over the vector (the kernel's rsqrt and the host's are one
  function on the extended reals). Generic in n.
-/
import proofs.«126781_j2087354105980_1_alg».proof.Proof.LibHostBroadcast
import proofs.«126781_j2087354105980_1_alg».proof.Proof.LibColumns
import Idealize.ShloMosaic.PureOps.Ideal.Laws

noncomputable section

namespace Cert.LibRows

open Idealize.ShloMosaic Idealize.ShloMosaic.ValueIdx

variable {α : Type} {n : ℕ}

/-- The reshape of a vector to a row is the broadcast of the vector along axis 1 of the row. -/
theorem reshape_row_eq_bcast (y : (⟨1, ![n]⟩ : Shape).Idx → α) (hc : (⟨1, ![n]⟩ : Shape).ShapeCasts ⟨2, ![1, n]⟩)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims) :
    shapeCast ⟨2, ![1, n]⟩ y hc = broadcastInDim ⟨2, ![1, n]⟩ dims hB y := by
  funext j
  obtain ⟨u, q, rfl⟩ : ∃ (u : Fin 1) (q : Fin n), j = ix2 u q := ⟨j 0, j 1, eq_ix2 j⟩
  rw [Cert.LibHostBroadcast.bcast_b_1b_apply dims hd hB]
  exact shapeCast_apply y hc _ _ (by
    have hu : u.val = 0 := by omega
    rw [Shape.rowMajor_val_two, Shape.rowMajor_val_one]
    show q.val = u.val * n + q.val
    rw [hu, Nat.zero_mul, Nat.zero_add])

/-- 1/sqrt(v + ε) on the row of a vector is the row of 1/sqrt(v + ε) on the vector. -/
theorem rsqrt_add_row (e : BitVec 32) (y : FVec Ideal ⟨1, ![n]⟩ .f32)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims)
    (d0 : Fin (⟨0, ![]⟩ : Shape).rank → Fin (⟨1, ![n]⟩ : Shape).rank) (h0 : (⟨0, ![]⟩ : Shape).BroadcastsInDim ⟨1, ![n]⟩ d0) :
    rsqrt (addf (broadcastInDim ⟨2, ![1, n]⟩ dims hB y) (broadcast ⟨2, ![1, n]⟩ (Scalar.ofBits (F := Ideal) .f32 e)))
      = broadcastInDim ⟨2, ![1, n]⟩ dims hB
          (Host.rsqrt (addf y (broadcastInDim ⟨1, ![n]⟩ d0 h0 (constant (F := Ideal) ⟨0, ![]⟩ .f32 e)))) := by
  funext j
  obtain ⟨u, q, rfl⟩ : ∃ (u : Fin 1) (q : Fin n), j = ix2 u q := ⟨j 0, j 1, eq_ix2 j⟩
  rw [Cert.LibHostBroadcast.bcast_b_1b_apply dims hd hB]
  show FloatOps.rsqrt (FloatOps.addf (broadcastInDim ⟨2, ![1, n]⟩ dims hB y (ix2 u q)) (Ideal.ofBits .f32 e))
    = Ideal.rsqrt (FloatOps.addf (y (ix1 q)) (Ideal.ofBits .f32 e))
  rw [Cert.LibHostBroadcast.bcast_b_1b_apply dims hd hB]
  rfl

end Cert.LibRows

end
-- ==== Proof.LibDenseRelu.lean ====
/-
  A dense layer with its bias given as a vector, on a block of rows and on all rows.

  For an M' x K matrix X, a K x N weight matrix W and a bias vector b of length N, the layer is  X . W + b  with b laid
  along every row, optionally followed by the maximum with zero, entry by entry. Entry (p, q) is
  (sum over k of X(p, k) W(k, q)) + b(q): it depends on row p of X only. So the same expression evaluated on rows
  r, ..., r+M-1 of X is rows r, ..., r+M-1 of the whole result. Two spellings are compared: on the block, a matrix
  product accumulated from the zero matrix, the bias reshaped to a 1 x N row and spread over the M rows, and the maximum
  with a splatted zero; on all rows, the host's contraction, the bias placed as a 1 x N row by a broadcast and spread over
  the M' rows by another, and the maximum with a zero scalar broadcast over the matrix. On the extended reals a change of
  float format is the identity, so the block's operands may be labelled with other formats than the whole matrix's as
  long as the entries agree. No law of arithmetic is used: the sums are the same sums, term by term.
  Generic in the extents and the formats.
-/
import proofs.«126781_j2087354105980_1_alg».proof.Proof.LibRowBlockOps
import proofs.«126781_j2087354105980_1_alg».proof.Proof.LibRowBlockFmt
import proofs.«126781_j2087354105980_1_alg».proof.Proof.LibRows

noncomputable section

namespace Cert.LibRowBlock.RowBlk

open Idealize.ShloMosaic Idealize.ShloMosaic.ValueIdx

variable {M M' N K : ℕ} {r : ℕ}

/-- A matrix is rows 0, ..., M-1 of itself. -/
theorem self {α : Type} (X : (⟨2, ![M, N]⟩ : Shape).Idx → α) : RowBlk 0 X X :=
  RowBlk.of_read X (fun j => j) (fun j => by omega) (fun _ => rfl)

/-- Rows 0, ..., M-1 of an M-row matrix are the matrix. -/
theorem eq_of_zero {α : Type} {x X : (⟨2, ![M, N]⟩ : Shape).Idx → α} (h : RowBlk 0 x X) : x = X :=
  funext fun j => h.apply j j (by omega) rfl

/-- A change of float format of a block, on the extended reals, keeps it the same block of rows. -/
theorem truncf {φ ψ χ : FTy} (hlt : ψ.bits < φ.bits) {x : FVec Ideal ⟨2, ![M, N]⟩ φ} {X : FVec Ideal ⟨2, ![M', N]⟩ χ}
    (hx : RowBlk (α := EReal) r x X) : RowBlk (α := EReal) r (Idealize.ShloMosaic.truncf ψ x hlt) X :=
  fun p q h => hx p q h

/-- The maximum of two blocks, entry by entry. -/
theorem maxf {φ : FTy} {x y : FVec Ideal ⟨2, ![M, N]⟩ φ} {X Y : FVec Ideal ⟨2, ![M', N]⟩ φ} (hx : RowBlk r x X) (hy : RowBlk r y Y) :
    RowBlk r (Idealize.ShloMosaic.maximumf x y) (Idealize.ShloMosaic.maximumf X Y) := RowBlk.map₂ FloatOps.maximumf hx hy

/-- The layer without the maximum: block product from zero plus the reshaped bias spread over the block's rows, against
    the host's contraction plus the bias placed as a row and spread over all rows. -/
theorem dense_fmt {φ₁ φ₂ ψ₁ ψ₂ : FTy}
    (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (x : FVec Ideal ⟨2, ![M, K]⟩ φ₁) (X : FVec Ideal ⟨2, ![M', K]⟩ ψ₁)
    (w : FVec Ideal ⟨2, ![K, N]⟩ φ₂) (W : FVec Ideal ⟨2, ![K, N]⟩ ψ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (dims1 : Fin (⟨1, ![N]⟩ : Shape).rank → Fin (⟨2, ![1, N]⟩ : Shape).rank)
    (hd1 : dims1 ⟨0, Nat.one_pos⟩ = ⟨1, Nat.lt_succ_self 1⟩)
    (hB1 : (⟨1, ![N]⟩ : Shape).BroadcastsInDim ⟨2, ![1, N]⟩ dims1)
    (dims2 : Fin (⟨2, ![1, N]⟩ : Shape).rank → Fin (⟨2, ![M', N]⟩ : Shape).rank)
    (hd2 : dims2 ⟨1, Nat.lt_succ_self 1⟩ = ⟨1, Nat.lt_succ_self 1⟩)
    (hB2 : (⟨2, ![1, N]⟩ : Shape).BroadcastsInDim ⟨2, ![M', N]⟩ dims2)
    (hx : RowBlk (α := EReal) r x X) (hw : ∀ i, (w i : EReal) = W i) :
    RowBlk (α := EReal) r
      (Idealize.ShloMosaic.addf (matmul D none x w (constant (F := Ideal) ⟨2, ![M, N]⟩ .f32 0x00000000#32))
        (broadcastTo ⟨2, ![M, N]⟩ (shapeCast ⟨2, ![1, N]⟩ b hc) hb))
      (Idealize.ShloMosaic.addf (Host.dotGeneral D' none X W)
        (broadcastInDim ⟨2, ![M', N]⟩ dims2 hB2 (broadcastInDim ⟨2, ![1, N]⟩ dims1 hB1 b))) := by
  rw [Cert.LibRows.reshape_row_eq_bcast b hc dims1 hd1 hB1]
  exact RowBlk.addf (φ := .f32)
    (RowBlk.matmul_dot_fmt D hD D' hD' none none .single x X w W hx hw)
    (RowBlk.rowBias (broadcastInDim ⟨2, ![1, N]⟩ dims1 hB1 b) hb dims2 hd2 hB2)

/-- The layer with the maximum with zero after it. -/
theorem denseRelu_fmt {φ₁ φ₂ ψ₁ ψ₂ : FTy}
    (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (x : FVec Ideal ⟨2, ![M, K]⟩ φ₁) (X : FVec Ideal ⟨2, ![M', K]⟩ ψ₁)
    (w : FVec Ideal ⟨2, ![K, N]⟩ φ₂) (W : FVec Ideal ⟨2, ![K, N]⟩ ψ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (dims1 : Fin (⟨1, ![N]⟩ : Shape).rank → Fin (⟨2, ![1, N]⟩ : Shape).rank)
    (hd1 : dims1 ⟨0, Nat.one_pos⟩ = ⟨1, Nat.lt_succ_self 1⟩)
    (hB1 : (⟨1, ![N]⟩ : Shape).BroadcastsInDim ⟨2, ![1, N]⟩ dims1)
    (dims2 : Fin (⟨2, ![1, N]⟩ : Shape).rank → Fin (⟨2, ![M', N]⟩ : Shape).rank)
    (hd2 : dims2 ⟨1, Nat.lt_succ_self 1⟩ = ⟨1, Nat.lt_succ_self 1⟩)
    (hB2 : (⟨2, ![1, N]⟩ : Shape).BroadcastsInDim ⟨2, ![M', N]⟩ dims2)
    (d0 : Fin (⟨0, ![]⟩ : Shape).rank → Fin (⟨2, ![M', N]⟩ : Shape).rank)
    (h0 : (⟨0, ![]⟩ : Shape).BroadcastsInDim ⟨2, ![M', N]⟩ d0)
    (hx : RowBlk (α := EReal) r x X) (hw : ∀ i, (w i : EReal) = W i) :
    RowBlk (α := EReal) r
      (Idealize.ShloMosaic.maximumf
        (Idealize.ShloMosaic.addf (matmul D none x w (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)))
      (Idealize.ShloMosaic.maximumf
        (Idealize.ShloMosaic.addf (Host.dotGeneral D' none X W)
          (broadcastInDim ⟨2, ![M', N]⟩ dims2 hB2 (broadcastInDim ⟨2, ![1, N]⟩ dims1 hB1 b)))
        (broadcastInDim ⟨2, ![M', N]⟩ d0 h0 (constant (F := Ideal) ⟨0, ![]⟩ .f32 0x00000000#32))) :=
  RowBlk.maxf (φ := .f32)
    (dense_fmt D hD D' hD' x X w W b hc hb dims1 hd1 hB1 dims2 hd2 hB2 hx hw)
    (RowBlk.splat (M := M) (r := r) (φ := .f32) 0x00000000#32 d0 h0)

end Cert.LibRowBlock.RowBlk

end
-- ==== Proof.Bridge.lean ====
/-
  The two kernels' arithmetic against the reference's, on the extended reals.

  phi. On a block of rows of x the kernel computes max(max(x . W1 + b1, 0) . W2 + b2, 0) with the operands of both
  products narrowed to another float format first and the products accumulated from zero. On the extended reals a
  change of format is the identity, and each entry of a layer depends on one row of its input only, so on rows
  r, ..., r+9999 of x this is rows r, ..., r+9999 of the reference's phi of the whole x: two dense layers with the
  maximum with zero after each, one after the other.
  rho. On the whole pooled matrix the kernel computes the same three dense layers as the reference (the products from
  zero, the biases reshaped and spread) and then the logistic function, which on the extended reals IS
  1 / (1 + exp(-o)), the reference's spelling (0 at -inf, 1 at +inf): the two results are one function.
  Nothing here needs the inputs finite: sums and products are taken in the same order on both sides.
-/
import proofs.«126781_j2087354105980_1_alg».proof.Proof.Gen.KernelIdeal.Skeleton
import proofs.«126781_j2087354105980_1_alg».proof.Proof.RefTerm
import proofs.«126781_j2087354105980_1_alg».proof.Proof.LibDenseRelu

set_option maxRecDepth 16384

noncomputable section

namespace Cert.Bridge

open Idealize.ShloMosaic Idealize.ShloMosaic.ValueIdx Cert.LibRowBlock

/-- Rows r, ... of x give rows r, ... of phi: the phi kernel's body on a row block, its weights narrowed, is the row
    block of the reference's phi. -/
theorem phi_rows {r : ℕ} (x : FVec Ideal Cert.KernelIdeal.S10000x64 .f32) (X : FVec Ideal Cert.ReferenceIdeal.S1000000x64 .f32)
    (w1 : FVec Ideal Cert.ReferenceIdeal.S64x128 .f32) (b1 : FVec Ideal Cert.ReferenceIdeal.S128 .f32)
    (w2 : FVec Ideal Cert.ReferenceIdeal.S128x128 .f32) (b2 : FVec Ideal Cert.ReferenceIdeal.S128 .f32)
    (hx : RowBlk (α := EReal) r x X) :
    RowBlk (α := EReal) r
      (Cert.KernelIdeal.Gen.k0_pay1 (F := Ideal) x (truncf .bf16 w1 Cert.KernelIdeal.Gen.bitsLt_bf16_f32) b1
        (truncf .bf16 w2 Cert.KernelIdeal.Gen.bitsLt_bf16_f32) b2)
      (Cert.ReferenceIdeal.RefV.phi (F := Ideal) X w1 b1 w2 b2) := by
  unfold Cert.KernelIdeal.Gen.k0_pay1 Cert.ReferenceIdeal.RefV.phi
  dsimp only
  rw [shapeCast_self, shapeCast_self]
  have h1 := RowBlk.denseRelu_fmt (r := r) Cert.KernelIdeal.dot_S10000x64_S64x128_S10000x128_1_0_0_1_n_n rfl
    Cert.ReferenceIdeal.dot_S1000000x64_S64x128_S1000000x128_1_0_0_1_n_n rfl
    (truncf .bf16 x Cert.KernelIdeal.Gen.bitsLt_bf16_f32) X (truncf .bf16 w1 Cert.KernelIdeal.Gen.bitsLt_bf16_f32) w1 b1
    Cert.KernelIdeal.Gen.shapeCasts_S128_S1x128 Cert.KernelIdeal.Gen.broadcasts_S1x128_S10000x128
    ![1] rfl Cert.ReferenceIdeal.Gen.bcast_S128_S1x128_1 ![0, 1] rfl Cert.ReferenceIdeal.Gen.bcast_S1x128_S1000000x128_0_1
    ![] Cert.ReferenceIdeal.Gen.bcast_S_S1000000x128 (RowBlk.truncf _ hx) (fun _ => rfl)
  exact RowBlk.denseRelu_fmt (r := r) Cert.KernelIdeal.dot_S10000x128_S128x128_S10000x128_1_0_0_1_n_n rfl
    Cert.ReferenceIdeal.dot_S1000000x128_S128x128_S1000000x128_1_0_0_1_n_n rfl
    _ _ (truncf .bf16 w2 Cert.KernelIdeal.Gen.bitsLt_bf16_f32) w2 b2
    Cert.KernelIdeal.Gen.shapeCasts_S128_S1x128 Cert.KernelIdeal.Gen.broadcasts_S1x128_S10000x128
    ![1] rfl Cert.ReferenceIdeal.Gen.bcast_S128_S1x128_1 ![0, 1] rfl Cert.ReferenceIdeal.Gen.bcast_S1x128_S1000000x128_0_1
    ![] Cert.ReferenceIdeal.Gen.bcast_S_S1000000x128 (RowBlk.truncf _ h1) (fun _ => rfl)

/-- The column before the logistic function: the rho kernel's three layers are the reference's. -/
theorem rhoPre_eq (p : FVec Ideal Cert.ReferenceIdeal.S10000x128 .f32) (w1 : FVec Ideal Cert.ReferenceIdeal.S128x256 .f32)
    (b1 : FVec Ideal Cert.ReferenceIdeal.S256 .f32) (w2 : FVec Ideal Cert.ReferenceIdeal.S256x128 .f32)
    (b2 : FVec Ideal Cert.ReferenceIdeal.S128 .f32) (w3 : FVec Ideal Cert.ReferenceIdeal.S128x1 .f32)
    (b3 : FVec Ideal Cert.ReferenceIdeal.S1 .f32) :
    addf
      (matmul Cert.KernelIdeal.dot_S10000x128_S128x1_S10000x1_1_0_0_1_n_n none
        (maximumf
          (addf
            (matmul Cert.KernelIdeal.dot_S10000x256_S256x128_S10000x128_1_0_0_1_n_n none
              (maximumf
                (addf
                  (matmul Cert.KernelIdeal.dot_S10000x128_S128x256_S10000x256_1_0_0_1_n_n none p w1
                    (constant (F := Ideal) Cert.KernelIdeal.S10000x256 .f32 0x00000000#32))
                  (broadcastTo Cert.KernelIdeal.S10000x256 (shapeCast Cert.KernelIdeal.S1x256 b1 Cert.KernelIdeal.Gen.shapeCasts_S256_S1x256)
                    Cert.KernelIdeal.Gen.broadcasts_S1x256_S10000x256))
                (broadcast Cert.KernelIdeal.S10000x256 (Scalar.ofBits (F := Ideal) .f32 0x00000000#32)))
              w2 (constant (F := Ideal) Cert.KernelIdeal.S10000x128 .f32 0x00000000#32))
            (broadcastTo Cert.KernelIdeal.S10000x128 (shapeCast Cert.KernelIdeal.S1x128 b2 Cert.KernelIdeal.Gen.shapeCasts_S128_S1x128)
              Cert.KernelIdeal.Gen.broadcasts_S1x128_S10000x128))
          (broadcast Cert.KernelIdeal.S10000x128 (Scalar.ofBits (F := Ideal) .f32 0x00000000#32)))
        w3 (constant (F := Ideal) Cert.KernelIdeal.S10000x1 .f32 0x00000000#32))
      (broadcastTo Cert.KernelIdeal.S10000x1 (shapeCast Cert.KernelIdeal.S1x1 b3 Cert.KernelIdeal.Gen.shapeCasts_S1_S1x1)
        Cert.KernelIdeal.Gen.broadcasts_S1x1_S10000x1)
    = Cert.ReferenceIdeal.RefV.rhoPre (F := Ideal) p w1 b1 w2 b2 w3 b3 := by
  unfold Cert.ReferenceIdeal.RefV.rhoPre
  have h1 := RowBlk.denseRelu_fmt (r := 0) Cert.KernelIdeal.dot_S10000x128_S128x256_S10000x256_1_0_0_1_n_n rfl
    Cert.ReferenceIdeal.dot_S10000x128_S128x256_S10000x256_1_0_0_1_n_n rfl p p w1 w1 b1
    Cert.KernelIdeal.Gen.shapeCasts_S256_S1x256 Cert.KernelIdeal.Gen.broadcasts_S1x256_S10000x256
    ![1] rfl Cert.ReferenceIdeal.Gen.bcast_S256_S1x256_1 ![0, 1] rfl Cert.ReferenceIdeal.Gen.bcast_S1x256_S10000x256_0_1
    ![] Cert.ReferenceIdeal.Gen.bcast_S_S10000x256 (RowBlk.self (α := EReal) p) (fun _ => rfl)
  have h2 := RowBlk.denseRelu_fmt (r := 0) Cert.KernelIdeal.dot_S10000x256_S256x128_S10000x128_1_0_0_1_n_n rfl
    Cert.ReferenceIdeal.dot_S10000x256_S256x128_S10000x128_1_0_0_1_n_n rfl _ _ w2 w2 b2
    Cert.KernelIdeal.Gen.shapeCasts_S128_S1x128 Cert.KernelIdeal.Gen.broadcasts_S1x128_S10000x128
    ![1] rfl Cert.ReferenceIdeal.Gen.bcast_S128_S1x128_1 ![0, 1] rfl Cert.ReferenceIdeal.Gen.bcast_S1x128_S10000x128_0_1
    ![] Cert.ReferenceIdeal.Gen.bcast_S_S10000x128 h1 (fun _ => rfl)
  exact RowBlk.eq_of_zero (α := EReal)
    (RowBlk.dense_fmt (r := 0) Cert.KernelIdeal.dot_S10000x128_S128x1_S10000x1_1_0_0_1_n_n rfl
      Cert.ReferenceIdeal.dot_S10000x128_S128x1_S10000x1_1_0_0_1_n_n rfl _ _ w3 w3 b3
      Cert.KernelIdeal.Gen.shapeCasts_S1_S1x1 Cert.KernelIdeal.Gen.broadcasts_S1x1_S10000x1
      ![1] rfl Cert.ReferenceIdeal.Gen.bcast_S1_S1x1_1 ![0, 1] rfl Cert.ReferenceIdeal.Gen.bcast_S1x1_S10000x1_0_1
      h2 (fun _ => rfl))

/-- The f32 word 0x3F800000 is the number one. -/
theorem one_word : Ideal.ofBits .f32 0x3F800000#32 = 1 := by simp [Ideal.ofBits, Ideal.ieee, -EReal.coe_mul]; norm_num

/-- The rho kernel's body and the reference's rho are one function of the pooled matrix and the six parameters. -/
theorem rho_eq (p : FVec Ideal Cert.ReferenceIdeal.S10000x128 .f32) (w1 : FVec Ideal Cert.ReferenceIdeal.S128x256 .f32)
    (b1 : FVec Ideal Cert.ReferenceIdeal.S256 .f32) (w2 : FVec Ideal Cert.ReferenceIdeal.S256x128 .f32)
    (b2 : FVec Ideal Cert.ReferenceIdeal.S128 .f32) (w3 : FVec Ideal Cert.ReferenceIdeal.S128x1 .f32)
    (b3 : FVec Ideal Cert.ReferenceIdeal.S1 .f32) :
    Cert.KernelIdeal.Gen.k1_pay1 (F := Ideal) p w1 b1 w2 b2 w3 b3 = Cert.ReferenceIdeal.RefV.rho (F := Ideal) p w1 b1 w2 b2 w3 b3 := by
  unfold Cert.KernelIdeal.Gen.k1_pay1 Cert.ReferenceIdeal.RefV.rho
  dsimp only
  rw [shapeCast_self, rhoPre_eq p w1 b1 w2 b2 w3 b3]
  funext i
  show Ideal.logistic (Cert.ReferenceIdeal.RefV.rhoPre (F := Ideal) p w1 b1 w2 b2 w3 b3 i)
    = Ideal.div (Ideal.ofBits .f32 0x3F800000#32)
        (Ideal.ofBits .f32 0x3F800000#32 + Ideal.exp (-(Cert.ReferenceIdeal.RefV.rhoPre (F := Ideal) p w1 b1 w2 b2 w3 b3 i)))
  rw [one_word]
  rfl

end Cert.Bridge

end
-- ==== Proof.KernelValue.lean ====
/-
  The idealized kernel program's result, as a function of its arguments.

  After the run the result buffer holds the last boundary's contents, which is the rho region's output array: the rho
  body's arithmetic on the pooled matrix and the six rho parameters. The pooled matrix is the segment sum of the phi
  region's output array, and that array is, block of rows by block of rows, the phi body's arithmetic on the rows of x:
  the reference's phi of x. The segment sum is the same operations on both sides, and the rho body is the reference's
  rho. So the result is the reference's function of the twelve arguments.
-/
import proofs.«126781_j2087354105980_1_alg».proof.Proof.KernelRun
import proofs.«126781_j2087354105980_1_alg».proof.Proof.KernelRegion0
import proofs.«126781_j2087354105980_1_alg».proof.Proof.KernelRegion1
import proofs.«126781_j2087354105980_1_alg».proof.Proof.KernelGlue
import proofs.«126781_j2087354105980_1_alg».proof.Proof.Bridge

set_option maxRecDepth 16384

noncomputable section

namespace Cert.KernelIdeal.ValueV

open Cert.KernelIdeal Cert.KernelIdeal.Gen Idealize.ShloMosaic Idealize.ShloMosaic.TcCoe Idealize.SL.Sem
open Idealize.ShloMosaic.Pipeline (Dat)
open Cert.LibRowBlock

section AnyFloats

variable {F : FTy → Type} [FloatOps F]
variable (m : (ℓ : Loc nD τ sig) → Buf (Elt F) ℓ) (ρ : Dev nD → PrngReg)

/-! ## The rho parameters are as launched when the rho region is entered

Each is an input window's array of the rho region, so what the region finds is what it leaves, and what it leaves
is the launch contents (the frame's own reading of the fold at an argument). -/

theorem V5_arg6 (c : Dev nD) : V5 m ρ c main_arg6 = m ((c.tc : Thread nD τ).loc main_arg6) :=
  ((W6_arr m ρ c 1).trans (((dat1 (V5 m ρ) c).arrAt_in 1 rfl _).trans (A_eq1 (V5 m ρ) c 1))).symm.trans (W6_main_arg6 m ρ c)
theorem V5_arg7 (c : Dev nD) : V5 m ρ c main_arg7 = m ((c.tc : Thread nD τ).loc main_arg7) :=
  ((W6_arr m ρ c 2).trans (((dat1 (V5 m ρ) c).arrAt_in 2 rfl _).trans (A_eq1 (V5 m ρ) c 2))).symm.trans (W6_main_arg7 m ρ c)
theorem V5_arg8 (c : Dev nD) : V5 m ρ c main_arg8 = m ((c.tc : Thread nD τ).loc main_arg8) :=
  ((W6_arr m ρ c 3).trans (((dat1 (V5 m ρ) c).arrAt_in 3 rfl _).trans (A_eq1 (V5 m ρ) c 3))).symm.trans (W6_main_arg8 m ρ c)
theorem V5_arg9 (c : Dev nD) : V5 m ρ c main_arg9 = m ((c.tc : Thread nD τ).loc main_arg9) :=
  ((W6_arr m ρ c 4).trans (((dat1 (V5 m ρ) c).arrAt_in 4 rfl _).trans (A_eq1 (V5 m ρ) c 4))).symm.trans (W6_main_arg9 m ρ c)
theorem V5_arg10 (c : Dev nD) : V5 m ρ c main_arg10 = m ((c.tc : Thread nD τ).loc main_arg10) :=
  ((W6_arr m ρ c 5).trans (((dat1 (V5 m ρ) c).arrAt_in 5 rfl _).trans (A_eq1 (V5 m ρ) c 5))).symm.trans (W6_main_arg10 m ρ c)
theorem V5_arg11 (c : Dev nD) : V5 m ρ c main_arg11 = m ((c.tc : Thread nD τ).loc main_arg11) :=
  ((W6_arr m ρ c 6).trans (((dat1 (V5 m ρ) c).arrAt_in 6 rfl _).trans (A_eq1 (V5 m ρ) c 6))).symm.trans (W6_main_arg11 m ρ c)

end AnyFloats

/-! ## On the extended reals -/

variable (m : (ℓ : Loc nD τ sig) → Buf (Elt Ideal) ℓ) (ρ : Dev nD → PrngReg)

-- the two sides are the same operations on the same operands, spelled in the two programs' vocabularies: the shape
-- names and the records of dimension numbers unfold to the same literals; the operations themselves stay folded
attribute [local irreducible] Host.reduceWindow Host.scatterAdd concatenate extractStridedSlice broadcastInDim extui cmpi in
/-- The segment sum between the regions is the reference's. -/
theorem pool_eq (ids : IVec S1000000 32) (h : FVec Ideal S1000000x128 .f32) :
    Cert.KernelIdeal.Glue.pool (F := Ideal) ids h = Cert.ReferenceIdeal.RefV.pool (F := Ideal) ids h := rfl

/-- The phi region's output array is the reference's phi of the arguments. -/
theorem phi_array (c : Dev nD) :
    W2 m ρ c (Proc.devRef .tc main_v2)
      = Cert.ReferenceIdeal.RefV.phi (F := Ideal) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) := by
  refine (W2_arr m ρ c 5).trans ?_
  refine Cert.KernelIdeal.Region0.arrAt0_5 (V1 m ρ) c _ fun t => ?_
  unfold Cert.KernelIdeal.Region0.body
  rw [Cert.KernelIdeal.Glue.V1_v0 m ρ c, Cert.KernelIdeal.Glue.V1_v1 m ρ c, Cert.KernelIdeal.Glue.V1_arg3 m ρ c,
    Cert.KernelIdeal.Glue.V1_arg5 m ρ c]
  have hrows := Cert.KernelIdeal.Region0.rows0_0 (V1 m ρ) c t
  rw [Cert.KernelIdeal.Glue.V1_arg0 m ρ c] at hrows
  exact Cert.Bridge.phi_rows (r := t.val * 10000) (iblk0 (V1 m ρ) c 0 t) (m ((c.tc : Thread nD τ).loc main_arg0))
    (m ((c.tc : Thread nD τ).loc main_arg2)) (m ((c.tc : Thread nD τ).loc main_arg3)) (m ((c.tc : Thread nD τ).loc main_arg4))
    (m ((c.tc : Thread nD τ).loc main_arg5)) hrows

/-- THE RESULT: the last boundary's contents at the result buffer is the reference's function of the arguments. -/
theorem result_eq (c : Dev nD) :
    W6 m ρ c (Proc.devRef .tc main_v13)
      = Cert.ReferenceIdeal.RefV.out (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  refine (W6_arr m ρ c 7).trans ?_
  rw [Cert.KernelIdeal.Region1.arrAt1_7 (V5 m ρ) c]
  unfold Cert.KernelIdeal.Region1.result Cert.ReferenceIdeal.RefV.out
  rw [Cert.KernelIdeal.Glue.V5_v12 m ρ c, V5_arg6 m ρ c, V5_arg7 m ρ c, V5_arg8 m ρ c, V5_arg9 m ρ c, V5_arg10 m ρ c,
    V5_arg11 m ρ c, phi_array m ρ c, pool_eq]
  exact Cert.Bridge.rho_eq _ _ _ _ _ _ _

end Cert.KernelIdeal.ValueV

end
-- ==== Proof.RefRun.lean ====
/-
  The reference program's run, read back.

  The reference's @main is a straight line of tensor operations: the two dense layers of phi with a maximum
  against zero after each, the running count of identifier changes, the sum of the rows by segment, the three
  dense layers of rho and the logistic function. Five of its lines are calls of module-local functions (the
  maximum against zero, four times, and the running sum, which itself calls the windowed reduction); a call
  executes the callee's body on the operands, each value of the body in a buffer of its own, so the program is
  the flat list of its fifty-four operations, the callees' listed at their call sites over the calls' buffers.

  From any memory with zero counters every weakly fair execution of that list terminates; the result buffer
  then holds the composed term of the operations applied to the arguments' launch contents, which is `out`
  (rho of the pooled phi), and every argument buffer holds what it held.
-/
import proofs.«126781_j2087354105980_1_alg».proof.Proof.RefTerm
import Idealize.ShloMosaic.Lib.StableHlo.Run

noncomputable section

namespace Cert.ReferenceIdeal.RefV

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- @main's fifty-four operations in order, the calls unfolded: each maximum against zero is three (the scalar
    zero, its broadcast, the maximum) into its call's buffers, the running sum is the windowed reduction's three
    (the scalar zero, its rank-zero broadcast, the reduction) into the nested call's buffers. -/
abbrev ops : List (HloOp τ sig (Elt F)) :=
  [ -- phi, first layer: x . W1 + b1
    binary main_arg0 main_arg2 main_v0 ((fun l r => Host.dotGeneral dot_S1000000x64_S64x128_S1000000x128_1_0_0_1_n_n none l r) : (⟨S1000000x64, .f32⟩ : BufTy).Contents (Elt F) → (⟨S64x128, .f32⟩ : BufTy).Contents (Elt F) → (⟨S1000000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S1000000x128 ![0, 1] bcast_S1x128_S1000000x128_0_1 : (⟨S1x128, .f32⟩ : BufTy).Contents (Elt F) → (⟨S1000000x128, .f32⟩ : BufTy).Contents (Elt F)),
    binary main_v0 main_v2 main_v3 (addf : (⟨S1000000x128, .f32⟩ : BufTy).Contents (Elt F) → (⟨S1000000x128, .f32⟩ : BufTy).Contents (Elt F) → (⟨S1000000x128, .f32⟩ : BufTy).Contents (Elt F)),
    -- the maximum against zero (call 0)
    TRef.nullary main_call0.cst (constant S_ .f32 0x00000000#32),
    TRef.unary main_call0.cst main_call0.v0 (broadcastInDim S1000000x128 ![] bcast_S_S1000000x128),
    TRef.binary (.of main_v3 : TRef sig ⟨S1000000x128, .f32⟩) main_call0.v0 main_call0.v1 maximumf,
    -- phi, second layer: . W2 + b2
    binary main_v4 main_arg4 main_v5 ((fun l r => Host.dotGeneral dot_S1000000x128_S128x128_S1000000x128_1_0_0_1_n_n none l r) : (⟨S1000000x128, .f32⟩ : BufTy).Contents (Elt F) → (⟨S128x128, .f32⟩ : BufTy).Contents (Elt F) → (⟨S1000000x128, .f32⟩ : BufTy).Contents (Elt F)),
    unary main_arg5 main_v6 (broadcastInDim S1x128 ![1] bcast_S128_S1x128_1 : (⟨S128, .f32⟩ : BufTy).Contents (Elt F) → (⟨S1x128, .f32⟩ : BufTy).Contents (Elt F)),
    unary main_v6 main_v7 (broadcastInDim S1000000x128 ![0, 1] bcast_S1x128_S1000000x128_0_1 : (⟨S1x128, .f32⟩ : BufTy).Contents (Elt F) → (⟨S1000000x128, .f32⟩ : BufTy).Contents (Elt F)),
    binary main_v5 main_v7 main_v8 (addf : (⟨S1000000x128, .f32⟩ : BufTy).Contents (Elt F) → (⟨S1000000x128, .f32⟩ : BufTy).Contents (Elt F) → (⟨S1000000x128, .f32⟩ : BufTy).Contents (Elt F)),
    -- the maximum against zero (call 1)
    TRef.nullary main_call1.cst (constant S_ .f32 0x00000000#32),
    TRef.unary main_call1.cst main_call1.v0 (broadcastInDim S1000000x128 ![] bcast_S_S1000000x128),
    TRef.binary (.of main_v8 : TRef sig ⟨S1000000x128, .f32⟩) main_call1.v0 main_call1.v1 maximumf,
    -- the segment of every row: where the identifier differs from the one before it, as 0 / 1
    unary main_arg1 main_v10 ((extractStridedSlice S999999 ![1] · slices_S1000000_S999999_1) : (⟨S1000000, .i32⟩ : BufTy).Contents (Elt F) → (⟨S999999, .i32⟩ : BufTy).Contents (Elt F)),
    unary main_arg1 main_v11 ((extractStridedSlice S999999 ![0] · slices_S1000000_S999999_0) : (⟨S1000000, .i32⟩ : BufTy).Contents (Elt F) → (⟨S999999, .i32⟩ : BufTy).Contents (Elt F)),
    binary main_v10 main_v11 main_v12 (cmpi .ne : (⟨S999999, .i32⟩ : BufTy).Contents (Elt F) → (⟨S999999, .i32⟩ : BufTy).Contents (Elt F) → (⟨S999999, .i1⟩ : BufTy).Contents (Elt F)),
    unary main_v12 main_v13 ((extui 32 · natLt_1_32) : (⟨S999999, .i1⟩ : BufTy).Contents (Elt F) → (⟨S999999, .i32⟩ : BufTy).Contents (Elt F)),
    nullary main_c (constantI S_ 32 0#32),
    unary main_c main_v14 (broadcastInDim S1 ![] bcast_S_S1 : (⟨S_, .i32⟩ : BufTy).Contents (Elt F) → (⟨S1, .i32⟩ : BufTy).Contents (Elt F)),
    -- the running sum (call 2, through its nested call of the windowed reduction)
    TRef.nullary main_call2.call0.c (constantI S_ 32 0#32),
    TRef.unary main_call2.call0.c main_call2.call0.v0 (broadcastInDim S_ ![] bcast_S_S_),
    TRef.binary (.of main_v13 : TRef sig ⟨S999999, .i32⟩) main_call2.call0.v0 main_call2.call0.v1 (fun x v => Host.reduceWindow IntOp.addi ![999999] ![1] ![999998] ![0] x v reduceWindows_S999999_S999999_w999999s1p999998_0 h_S_),
    binary main_v14 main_v15 main_v16 ((fun a b => concatenate S1000000 0 [⟨S1, a⟩, ⟨S999999, b⟩] concatenates_S1_S999999_S1000000_d0) : (⟨S1, .i32⟩ : BufTy).Contents (Elt F) → (⟨S999999, .i32⟩ : BufTy).Contents (Elt F) → (⟨S1000000, .i32⟩ : BufTy).Contents (Elt F)),
    -- pool: the rows added up by segment, from zero
    nullary main_cst (constant S_ .f32 0x00000000#32),
    unary main_cst main_v17 (broadcastInDim S10000x128 ![] bcast_S_S10000x128 : (⟨S_, .f32⟩ : BufTy).Contents (Elt F) → (⟨S10000x128, .f32⟩ : BufTy).Contents (Elt F)),
    unary main_v16 main_v18 (broadcastInDim S1000000x1 ![0] bcast_S1000000_S1000000x1_0 : (⟨S1000000, .i32⟩ : BufTy).Contents (Elt F) → (⟨S1000000x1, .i32⟩ : BufTy).Contents (Elt F)),
    ternary main_v17 main_v18 main_v9 main_v19 ((fun x i u => Host.scatterAdd scatter_S10000x128_S1000000x1_S1000000x128_1_0_0_1 x i u) : (⟨S10000x128, .f32⟩ : BufTy).Contents (Elt F) → (⟨S1000000x1, .i32⟩ : BufTy).Contents (Elt F) → (⟨S1000000x128, .f32⟩ : BufTy).Contents (Elt F) → (⟨S10000x128, .f32⟩ : BufTy).Contents (Elt F)),
    -- rho, first layer
    binary main_v19 main_arg6 main_v20 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    unary main_arg7 main_v21 (broadcastInDim S1x256 ![1] bcast_S256_S1x256_1 : (⟨S256, .f32⟩ : BufTy).Contents (Elt F) → (⟨S1x256, .f32⟩ : BufTy).Contents (Elt F)),
    unary main_v21 main_v22 (broadcastInDim S10000x256 ![0, 1] bcast_S1x256_S10000x256_0_1 : (⟨S1x256, .f32⟩ : BufTy).Contents (Elt F) → (⟨S10000x256, .f32⟩ : BufTy).Contents (Elt F)),
    binary main_v20 main_v22 main_v23 (addf : (⟨S10000x256, .f32⟩ : BufTy).Contents (Elt F) → (⟨S10000x256, .f32⟩ : BufTy).Contents (Elt F) → (⟨S10000x256, .f32⟩ : BufTy).Contents (Elt F)),
    -- the maximum against zero (call 3)
    TRef.nullary main_call3.cst (constant S_ .f32 0x00000000#32),
    TRef.unary main_call3.cst main_call3.v0 (broadcastInDim S10000x256 ![] bcast_S_S10000x256),
    TRef.binary (.of main_v23 : TRef sig ⟨S10000x256, .f32⟩) main_call3.v0 main_call3.v1 maximumf,
    -- rho, second layer
    binary main_v24 main_arg8 main_v25 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_arg9 main_v26 (broadcastInDim S1x128 ![1] bcast_S128_S1x128_1 : (⟨S128, .f32⟩ : BufTy).Contents (Elt F) → (⟨S1x128, .f32⟩ : BufTy).Contents (Elt F)),
    unary main_v26 main_v27 (broadcastInDim S10000x128 ![0, 1] bcast_S1x128_S10000x128_0_1 : (⟨S1x128, .f32⟩ : BufTy).Contents (Elt F) → (⟨S10000x128, .f32⟩ : BufTy).Contents (Elt F)),
    binary main_v25 main_v27 main_v28 (addf : (⟨S10000x128, .f32⟩ : BufTy).Contents (Elt F) → (⟨S10000x128, .f32⟩ : BufTy).Contents (Elt F) → (⟨S10000x128, .f32⟩ : BufTy).Contents (Elt F)),
    -- the maximum against zero (call 4)
    TRef.nullary main_call4.cst (constant S_ .f32 0x00000000#32),
    TRef.unary main_call4.cst main_call4.v0 (broadcastInDim S10000x128 ![] bcast_S_S10000x128),
    TRef.binary (.of main_v28 : TRef sig ⟨S10000x128, .f32⟩) main_call4.v0 main_call4.v1 maximumf,
    -- rho, third layer, to one column
    binary main_v29 main_arg10 main_v30 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg11 main_v31 (broadcastInDim S1x1 ![1] bcast_S1_S1x1_1 : (⟨S1, .f32⟩ : BufTy).Contents (Elt F) → (⟨S1x1, .f32⟩ : BufTy).Contents (Elt F)),
    unary main_v31 main_v32 (broadcastInDim S10000x1 ![0, 1] bcast_S1x1_S10000x1_0_1 : (⟨S1x1, .f32⟩ : BufTy).Contents (Elt F) → (⟨S10000x1, .f32⟩ : BufTy).Contents (Elt F)),
    binary main_v30 main_v32 main_v33 (addf : (⟨S10000x1, .f32⟩ : BufTy).Contents (Elt F) → (⟨S10000x1, .f32⟩ : BufTy).Contents (Elt F) → (⟨S10000x1, .f32⟩ : BufTy).Contents (Elt F)),
    -- the logistic function: 1 / (1 + exp(-o))
    unary main_v33 main_v34 (Host.negf : (⟨S10000x1, .f32⟩ : BufTy).Contents (Elt F) → (⟨S10000x1, .f32⟩ : BufTy).Contents (Elt F)),
    unary main_v34 main_v35 (Host.exp : (⟨S10000x1, .f32⟩ : BufTy).Contents (Elt F) → (⟨S10000x1, .f32⟩ : BufTy).Contents (Elt F)),
    nullary main_cst_0 (constant S_ .f32 0x3F800000#32),
    unary main_cst_0 main_v36 (broadcastInDim S10000x1 ![] bcast_S_S10000x1 : (⟨S_, .f32⟩ : BufTy).Contents (Elt F) → (⟨S10000x1, .f32⟩ : BufTy).Contents (Elt F)),
    binary main_v36 main_v35 main_v37 (addf : (⟨S10000x1, .f32⟩ : BufTy).Contents (Elt F) → (⟨S10000x1, .f32⟩ : BufTy).Contents (Elt F) → (⟨S10000x1, .f32⟩ : BufTy).Contents (Elt F)),
    nullary main_cst_1 (constant S_ .f32 0x3F800000#32),
    unary main_cst_1 main_v38 (broadcastInDim S10000x1 ![] bcast_S_S10000x1 : (⟨S_, .f32⟩ : BufTy).Contents (Elt F) → (⟨S10000x1, .f32⟩ : BufTy).Contents (Elt F)),
    binary main_v38 main_v37 main_v39 (Host.divf : (⟨S10000x1, .f32⟩ : BufTy).Contents (Elt F) → (⟨S10000x1, .f32⟩ : BufTy).Contents (Elt F) → (⟨S10000x1, .f32⟩ : BufTy).Contents (Elt F)) ]

-- fifty-four binds re-associated: the rewrite under the chain recurses once per statement
set_option maxRecDepth 1024 in
/-- @main is that straight line: the functions' definitions unfolded at their calls, both sides are one chain
    of steps once sequencing is reassociated. -/
theorem main_eq (c : Dev nD) : main (F := F) c = seq ops := by
  simp only [main, fn_relu.body, fn_cumsum.body, fn_cumsum_0.body, fn_relu_1.body, fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    nullary_bufs_sub .., unary_bufs_sub .., binary_bufs_sub ..,
    unary_bufs_sub .., unary_bufs_sub .., binary_bufs_sub .., unary_bufs_sub .., nullary_bufs_sub .., unary_bufs_sub ..,
    nullary_bufs_sub .., unary_bufs_sub .., binary_bufs_sub ..,
    binary_bufs_sub ..,
    nullary_bufs_sub .., unary_bufs_sub .., unary_bufs_sub .., ternary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    unary_bufs_sub .., unary_bufs_sub ..,
    nullary_bufs_sub .., unary_bufs_sub .., binary_bufs_sub ..,
    nullary_bufs_sub .., unary_bufs_sub .., binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.scatterAdd Host.reduceWindow in
set_option maxRecDepth 8192 in
/-- The fold at the result buffer is `out` of the arguments' contents: each operation's result at its own buffer
    is its function of its operands' contents, and at any other buffer what was there (which buffer an operation
    writes is decidable), the typed references' transports being the identity at literal references; so the fold
    at the last buffer is the operations' composed term, which is `out` with its stages unfolded. The sum by
    segment and the windowed reduction are kept folded: their bodies are folds over the operand's elements, and
    the equation never looks inside them. -/
theorem out_eq (V : Valuation τ sig (Elt F)) :
    after ops V (main_v39 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  after_results_simp
  unfold out rho rhoPre pool segIds phi
  rfl

/-! No operation writes an argument's buffer: each keeps its contents through the fold. -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp
theorem arg10_eq (V : Valuation τ sig (Elt F)) : after ops V (main_arg10 : DevRef τ sig) = V (main_arg10 : DevRef τ sig) := by
  after_results_simp
theorem arg11_eq (V : Valuation τ sig (Elt F)) : after ops V (main_arg11 : DevRef τ sig) = V (main_arg11 : DevRef τ sig) := by
  after_results_simp

/-- On every device, for any float values, from any memory with zero counters: every weakly fair execution of
    @main terminates with the result buffer at `out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v39).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c)),
       (h c main_arg10).trans (arg10_eq (launchContents m c)),
       (h c main_arg11).trans (arg11_eq (launchContents m c))⟩)
    (run_main m ρ)

end Cert.ReferenceIdeal.RefV

end
-- ==== Proof.lean ====
/-
  A deep-sets model: a two-layer network phi applied to each of 1000000 rows, the rows' images added up by event (the
  event of a row is the running count of the changes in a sorted identifier column), and a three-layer network rho with a
  logistic output applied to each of the 10000 sums.

  The kernel program runs phi in a pipelined region over 100 blocks of 10000 rows, with its matrix products' operands
  narrowed to a shorter float format, does the segment sum with the same host operations as the reference, and runs rho
  in a second region on the whole pooled matrix; the reference does everything with whole-array operations.
  On the extended reals, where a change of float format is the identity and every operation is exact:
    * a row of phi's output depends on the same row of x only, so the 100 blocks written by the first region are the
      rows of the reference's phi of x (a product accumulated from zero is the host's contraction, sum by sum);
    * the segment sum is literally the same operations applied to equal operands;
    * rho's three layers agree in the same way, and the kernel's logistic function is the reference's
      1 / (1 + exp(-o)) at every extended real.
  No step reorders a sum or distributes a product, so nothing is asked of the inputs beyond what the frames need.
  The three frames: the two kernel programs' are generated; the reference's is its run with the result dropped.
  The idealization rewrote nothing, so there is nothing to preserve.
-/
import proofs.«126781_j2087354105980_1_alg».proof.Defs
import proofs.«126781_j2087354105980_1_alg».proof.Proof.Gen.Kernel
import proofs.«126781_j2087354105980_1_alg».proof.Proof.Gen.Kernel.Skeleton
import proofs.«126781_j2087354105980_1_alg».proof.Proof.Gen.Kernel.Launch
import proofs.«126781_j2087354105980_1_alg».proof.Proof.Gen.Kernel.Points
import proofs.«126781_j2087354105980_1_alg».proof.Proof.Gen.Kernel.Frame
import proofs.«126781_j2087354105980_1_alg».proof.Proof.Gen.KernelIdeal
import proofs.«126781_j2087354105980_1_alg».proof.Proof.Gen.KernelIdeal.Skeleton
import proofs.«126781_j2087354105980_1_alg».proof.Proof.Gen.KernelIdeal.Launch
import proofs.«126781_j2087354105980_1_alg».proof.Proof.Gen.KernelIdeal.Points
import proofs.«126781_j2087354105980_1_alg».proof.Proof.Gen.KernelIdeal.Frame
import proofs.«126781_j2087354105980_1_alg».proof.Proof.Gen.ReferenceIdeal
import proofs.«126781_j2087354105980_1_alg».proof.Proof.Gen.Pre_finite_inputs
import proofs.«126781_j2087354105980_1_alg».proof.Proof.KernelValue
import proofs.«126781_j2087354105980_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefV.run (F := Ideal) m ρ)

/-- The idealization rewrote no operation. -/
theorem preserves : Cert.preserves_Kernel_KernelIdeal := trivial

/-- Both programs end with the reference's function of the arguments in their result buffers, the arguments unchanged. -/
theorem algebraic : Cert.algebraic_KernelIdeal_ReferenceIdeal := by
  intro m ρ m' ρ' _ hagree
  refine ⟨fun (c : Dev Cert.KernelIdeal.nD) => Cert.ReferenceIdeal.RefV.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · -- the kernel program: every buffer ends at the last boundary's contents; the result buffer's is the function above
    refine (θ_run Cert.KernelIdeal.defs _ _).mono (fun r h c => ?_) (Cert.KernelIdeal.RunV.run_all (F := Ideal) m ρ)
    exact ⟨(h c Cert.KernelIdeal.main_v13 (by decide)).trans (Cert.KernelIdeal.ValueV.result_eq m ρ c),
      (h c Cert.KernelIdeal.main_arg0 (by decide)).trans (Cert.KernelIdeal.Gen.W6_main_arg0 m ρ c),
      (h c Cert.KernelIdeal.main_arg1 (by decide)).trans (Cert.KernelIdeal.Gen.W6_main_arg1 m ρ c),
      (h c Cert.KernelIdeal.main_arg2 (by decide)).trans (Cert.KernelIdeal.Gen.W6_main_arg2 m ρ c),
      (h c Cert.KernelIdeal.main_arg3 (by decide)).trans (Cert.KernelIdeal.Gen.W6_main_arg3 m ρ c),
      (h c Cert.KernelIdeal.main_arg4 (by decide)).trans (Cert.KernelIdeal.Gen.W6_main_arg4 m ρ c),
      (h c Cert.KernelIdeal.main_arg5 (by decide)).trans (Cert.KernelIdeal.Gen.W6_main_arg5 m ρ c),
      (h c Cert.KernelIdeal.main_arg6 (by decide)).trans (Cert.KernelIdeal.Gen.W6_main_arg6 m ρ c),
      (h c Cert.KernelIdeal.main_arg7 (by decide)).trans (Cert.KernelIdeal.Gen.W6_main_arg7 m ρ c),
      (h c Cert.KernelIdeal.main_arg8 (by decide)).trans (Cert.KernelIdeal.Gen.W6_main_arg8 m ρ c),
      (h c Cert.KernelIdeal.main_arg9 (by decide)).trans (Cert.KernelIdeal.Gen.W6_main_arg9 m ρ c),
      (h c Cert.KernelIdeal.main_arg10 (by decide)).trans (Cert.KernelIdeal.Gen.W6_main_arg10 m ρ c),
      (h c Cert.KernelIdeal.main_arg11 (by decide)).trans (Cert.KernelIdeal.Gen.W6_main_arg11 m ρ c)⟩
  · -- the reference: its run, with its arguments rewritten to the kernel program's
    refine (θ_run Cert.ReferenceIdeal.defs _ _).mono (fun r h c => ⟨(h c).1.trans ?_, (h c).2⟩)
      (Cert.ReferenceIdeal.RefV.run (F := Ideal) m' ρ')
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
